-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x16x256 : Shape := ⟨3, ![256, 16, 256]⟩
abbrev S256 : Shape := ⟨1, ![256]⟩
abbrev S_ : Shape := ⟨0, ![]⟩

class Facts : Prop where
  bcast_S_S256x16x256 : S_.BroadcastsInDim S256x16x256 (![] : Fin 0 → Fin S256x16x256.rank)
  reducesTo_S256x16x256_S_d0_1_2 : S256x16x256.ReducesTo [0, 1, 2] S_
  h_S_ : 0 < S_.numel

variable [Facts]

def fn {F : FTy → Type} [FloatOps F] (main_arg0 : FVec F S256x16x256 .f32) (main_arg1 : IVec S256 32) : IVec S_ 1 :=
  let main_v0 : FVec F S256x16x256 .f32 := Host.absf main_arg0
  let main_cst : FVec F S_ .f32 := constant S_ .f32 0x7F800000#32
  let main_v1 : FVec F S256x16x256 .f32 := broadcastInDim S256x16x256 ![] bcast_S_S256x16x256 main_cst
  let main_v2 : IVec S256x16x256 1 := cmpf .olt main_v0 main_v1
  let main_c : IVec S_ 1 := constantI S_ 1 1#1
  let main_v3 : IVec S_ 1 := (fun x v => Host.reduce IntOp.andi x v reducesTo_S256x16x256_S_d0_1_2 h_S_) main_v2 main_c
  main_v3
-- ==== Kernel.lean ====
abbrev S256x16x256 : Shape := ⟨3, ![256, 16, 256]⟩
abbrev S256 : Shape := ⟨1, ![256]⟩
abbrev S16x256x256 : Shape := ⟨3, ![16, 256, 256]⟩
abbrev S4096x256 : Shape := ⟨2, ![4096, 256]⟩
abbrev S1x256 : Shape := ⟨2, ![1, 256]⟩
abbrev S16x256 : Shape := ⟨2, ![16, 256]⟩
abbrev S4096 : Shape := ⟨1, ![4096]⟩
abbrev S1x4096 : Shape := ⟨2, ![1, 4096]⟩
abbrev S4096x1 : Shape := ⟨2, ![4096, 1]⟩
abbrev S256x256 : Shape := ⟨2, ![256, 256]⟩
abbrev S256x1 : Shape := ⟨2, ![256, 1]⟩
abbrev S256x4096 : Shape := ⟨2, ![256, 4096]⟩
abbrev S_ : Shape := ⟨0, ![]⟩

abbrev nBuf : Space → Nat
  | .hbm => 15
  | .vmem => 8
  | .smem => 0
  | _ => 0

abbrev bufTy : (tb : Table) → Fin (tcTables nBuf tb) → BufTy
  | .hbm, ⟨0, _⟩ => ⟨S256x16x256, .f32⟩
  | .hbm, ⟨1, _⟩ => ⟨S256, .i32⟩
  | .hbm, ⟨2, _⟩ => ⟨S16x256x256, .f32⟩
  | .hbm, ⟨3, _⟩ => ⟨S4096x256, .f32⟩
  | .hbm, ⟨4, _⟩ => ⟨S1x256, .i32⟩
  | .hbm, ⟨5, _⟩ => ⟨S16x256, .i32⟩
  | .hbm, ⟨6, _⟩ => ⟨S4096, .i32⟩
  | .hbm, ⟨7, _⟩ => ⟨S4096x256, .bf16⟩
  | .hbm, ⟨8, _⟩ => ⟨S1x4096, .i32⟩
  | .hbm, ⟨9, _⟩ => ⟨S4096x1, .i32⟩
  | .hbm, ⟨10, _⟩ => ⟨S4096x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S256x1, .i32⟩
  | .local _ .vmem, ⟨4, _⟩ => ⟨S256x1, .i32⟩
  | .local _ .vmem, ⟨5, _⟩ => ⟨S1x4096, .i32⟩
  | .local _ .vmem, ⟨6, _⟩ => ⟨S256x1, .f32⟩
  | .local _ .vmem, ⟨7, _⟩ => ⟨S256x1, .f32⟩
  | _, _ => ⟨S256x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S256x16x256_S16x256x256_1_0_2 : S256x16x256.Transposes [1, 0, 2] S16x256x256
  shapeCasts_S16x256x256_S4096x256 : S16x256x256.ShapeCasts S4096x256
  shapeCasts_S256_S1x256 : S256.ShapeCasts S1x256
  bcast_S1x256_S16x256_0_1 : S1x256.BroadcastsInDim S16x256 (![0, 1] : Fin 2 → Fin S16x256.rank)
  shapeCasts_S16x256_S4096 : S16x256.ShapeCasts S4096
  bitsLt_bf16_f32 : FTy.bits .bf16 < FTy.bits .f32
  shapeCasts_S4096_S1x4096 : S4096.ShapeCasts S1x4096
  shapeCasts_S4096_S4096x1 : S4096.ShapeCasts S4096x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  reduces_S256x4096_S256 : S256x4096.Reduces [1] S256
  shapeCasts_S256_S256x1 : S256.ShapeCasts S256x1
  broadcasts_S256x1_S256x4096 : S256x1.Broadcasts S256x4096
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  iota_S256x1_d0_w32 : S256x1.Iotas .tc 32 [0]
  iota_S1x4096_d1_w32 : S1x4096.Iotas .tc 32 [1]
  natLt_1_32 : 1 < 32
  reducesTo_S4096x1_S_d0_1 : S4096x1.ReducesTo [0, 1] S_
  h_S_ : 0 < S_.numel
  dot_S256x256_S4096x256_S256x4096_1_1_0_0_n_n_wf : DotDims.WF S256x256 S4096x256 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .bf16 = 32 ∨ (Rect.block (s := S4096x256) S256x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .bf16 = 32 ∨ (Rect.block (s := S4096x256) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .i32 = 32 ∨ (Rect.block (s := S4096x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .i32 = 32 ∨ (Rect.block (s := S1x4096) S1x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)

variable [Facts₀]

def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf

abbrev win0_0 : Pipeline.Window sig grid0 :=
  Pipeline.Window.ofSpec (Memref.whole main_v5) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x16x256 : Shape := ⟨3, ![256, 16, 256]⟩
abbrev S256 : Shape := ⟨1, ![256]⟩
abbrev S16x256x256 : Shape := ⟨3, ![16, 256, 256]⟩
abbrev S4096x256 : Shape := ⟨2, ![4096, 256]⟩
abbrev S1x256 : Shape := ⟨2, ![1, 256]⟩
abbrev S16x256 : Shape := ⟨2, ![16, 256]⟩
abbrev S4096 : Shape := ⟨1, ![4096]⟩
abbrev S256x4096 : Shape := ⟨2, ![256, 4096]⟩
abbrev S4096x4096 : Shape := ⟨2, ![4096, 4096]⟩
abbrev S_ : Shape := ⟨0, ![]⟩
abbrev S4096x1 : Shape := ⟨2, ![4096, 1]⟩
abbrev S1x4096 : Shape := ⟨2, ![1, 4096]⟩
abbrev S4096x2 : Shape := ⟨2, ![4096, 2]⟩

abbrev nBuf : Space → Nat
  | .hbm => 69
  | .vmem => 0
  | .smem => 0
  | _ => 0

abbrev bufTy : (tb : Table) → Fin (tcTables nBuf tb) → BufTy
  | .hbm, ⟨0, _⟩ => ⟨S256x16x256, .f32⟩
  | .hbm, ⟨1, _⟩ => ⟨S256, .i32⟩
  | .hbm, ⟨2, _⟩ => ⟨S16x256x256, .f32⟩
  | .hbm, ⟨3, _⟩ => ⟨S4096x256, .f32⟩
  | .hbm, ⟨4, _⟩ => ⟨S1x256, .i32⟩
  | .hbm, ⟨5, _⟩ => ⟨S16x256, .i32⟩
  | .hbm, ⟨6, _⟩ => ⟨S4096, .i32⟩
  | .hbm, ⟨7, _⟩ => ⟨S256x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S4096x1, .i32⟩
  | .hbm, ⟨18, _⟩ => ⟨S1x4096, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S4096x1, .i32⟩
  | .hbm, ⟨42, _⟩ => ⟨S4096x1, .i32⟩
  | .hbm, ⟨43, _⟩ => ⟨S4096x2, .i32⟩
  | .hbm, ⟨44, _⟩ => ⟨S_, .f32⟩
  | .hbm, ⟨45, _⟩ => ⟨S4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S4096, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S256x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c : Ref sig .tc := ⟨.hbm, 27, rfl⟩
abbrev main_v22 : Ref sig .tc := ⟨.hbm, 28, rfl⟩
abbrev main_v23 : Ref sig .tc := ⟨.hbm, 29, rfl⟩
abbrev main_c_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_3 : Ref sig .tc := ⟨.hbm, 34, rfl⟩
abbrev main_v27 : Ref sig .tc := ⟨.hbm, 35, rfl⟩
abbrev main_v28 : Ref sig .tc := ⟨.hbm, 36, rfl⟩
abbrev main_c_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩

abbrev nD : Nat := 1
abbrev τ : Topo := Topo.v7x

variable {F : FTy → Type} [FloatOps F]

class Facts₀ : Prop where
  transposes_S256x16x256_S16x256x256_1_0_2 : S256x16x256.Transposes [1, 0, 2] S16x256x256
  shapeCasts_S16x256x256_S4096x256 : S16x256x256.ShapeCasts S4096x256
  shapeCasts_S256_S1x256 : S256.ShapeCasts S1x256
  bcast_S1x256_S16x256_0_1 : S1x256.BroadcastsInDim S16x256 (![0, 1] : Fin 2 → Fin S16x256.rank)
  shapeCasts_S16x256_S4096 : S16x256.ShapeCasts S4096
  transposes_S4096x256_S256x4096_1_0 : S4096x256.Transposes [1, 0] S256x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096 : S_.BroadcastsInDim S4096 (![] : Fin 0 → Fin S4096.rank)
  concatenates_S4096x1_S4096x1_S4096x2_d1 : Shape.Concatenates [S4096x1, S4096x1] S4096x2 1
  reducesTo_S4096_S_d0 : S4096.ReducesTo [0] S_
  dot_S4096x256_S256x4096_S4096x4096_1_0_0_1_n_n_wf : DotDims.WF S4096x256 S256x4096 S4096x4096 [1] [0] [0] [1] [] []
  scatter_S4096x4096_S4096x2_S4096_n_01_01_1_wf : ScatterDims.WF S4096x4096 S4096x2 S4096 [] [0, 1] [0, 1] 1

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def scatter_S4096x4096_S4096x2_S4096_n_01_01_1 : ScatterDims S4096x4096 S4096x2 S4096 where
  updateWindowDims := []
  insertedWindowDims := [0, 1]
  scatterDimsToOperandDims := [0, 1]
  indexVectorDim := 1
  wf := scatter_S4096x4096_S4096x2_S4096_n_01_01_1_wf

class Facts : Prop extends Facts₀ where

variable [Facts]
-- ==== Proof.KernelBody.lean ====
/-
  The launch of the kernel as printed, read at any float instance, first half: what the region finds, and what one grid point does.

  The program is eight host lines (the view-major relayout of the features, the labels repeated per view, and their
  row and column forms), one region over a grid of 16 points, and four host lines (the mean of the 4096 row values).
  Point t reads rows 256 t .. 256 t + 255 of the 4096 x 256 matrix (window 0) and of the label column (window 2),
  the WHOLE matrix again (window 1: the same array as window 0, which is why the array's ownership is dealt in two
  halves below) and the whole label row (window 3), and writes rows 256 t .. 256 t + 255 of the 4096 x 1 result
  (window 4). The body loads its four input blocks whole, computes, and stores one 256 x 1 block: so after the body
  the output buffer holds one function of the four input blocks and of the point, and the inputs are as they were.
-/
import proofs.«168036_j8761733284020_1_alg».proof.Proof.Gen.Kernel.Launch
import proofs.«168036_j8761733284020_1_alg».proof.Proof.Gen.Kernel.Skeleton
import proofs.«168036_j8761733284020_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents when the region is entered: the launch contents after the eight host lines. -/
abbrev V0 (c : Dev nD) : Valuation τ sig (Elt F) := StableHlo.after (List.flatten [hostOps0]) (fun b => m (c, b))
/-- The same at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines, the region, and the region's continuation by the last four lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (where it is not fetched
    the block's index has not moved), for any proof data over the region-entry arrays whose body leaves inputs alone. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body reads and writes -/

abbrev rQ : Rect S256x256 := Rect.unit (s := S256x256) ![0, 0] S256x256.size inb_S256x256_S256x256_0_0
abbrev rK : Rect S4096x256 := Rect.unit (s := S4096x256) ![0, 0] S4096x256.size inb_S4096x256_S4096x256_0_0
abbrev rC : Rect S256x1 := Rect.unit (s := S256x1) ![0, 0] S256x1.size inb_S256x1_S256x1_0_0
abbrev rR : Rect S1x4096 := Rect.unit (s := S1x4096) ![0, 0] S1x4096.size inb_S1x4096_S1x4096_0_0

/-- The output buffer after the body at grid coordinates `i`: its one store, of the row values computed from the four
    input blocks. -/
def outBlock (i : grid0.Coords) (x0 : Vec F S256x256 .bf16) (x1 : Vec F S4096x256 .bf16) (x2 : Vec F S256x1 .i32) (x3 : Vec F S1x4096 .i32) :
    Vec F S256x1 .f32 :=
  View.canon [⟨rC, k0_pay1 (k0_pay3 i (View.ld x2 rC) (View.ld x3 rR)) (k0_pay4 i (View.ld x0 rQ) (View.ld x1 rK) (View.ld x2 rC) (View.ld x3 rR))⟩]

/-- The one store covers the buffer. -/
theorem coverOut (p0 : Vec F S256x1 .f32) (y : S256x1.Idx) :
    ∃ pc ∈ ([⟨rC, p0⟩] : List (View.Piece (Elt F) S256x1 .f32)), y ∈ pc.1.set :=
  View.cover_of_tiled [⟨rC, p0⟩] S256x1.size (by rfl) y

/-! ## The body's triple -/

set_option maxHeartbeats 1000000 in
/-- The body on whole staging buffers, the inputs at contents `x0 … x3` and the output at anything, runs to its end
    with the inputs as they were and the output at `outBlock` of them. -/
theorem sound_kernel (c : Dev nD) (E : Set ℕ) (i : grid0.Coords)
    (arg1 : Memref sig .tc .vmem S256x256 .bf16) (harg1 : arg1.IsWhole) (arg2 : Memref sig .tc .vmem S4096x256 .bf16) (harg2 : arg2.IsWhole)
    (arg3 : Memref sig .tc .vmem S256x1 .i32) (harg3 : arg3.IsWhole) (arg4 : Memref sig .tc .vmem S1x4096 .i32) (harg4 : arg4.IsWhole)
    (arg5 : Memref sig .tc .vmem S256x1 .f32) (harg5 : arg5.IsWhole)
    (x0 : Vec F S256x256 .bf16) (x1 : Vec F S4096x256 .bf16) (x2 : Vec F S256x1 .i32) (x3 : Vec F S1x4096 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlock i x0 x1 x2 x3)) -∗ K ⟨⟩))
      ⊢ wp frame (wpE (defs₀ (F := F)) Variants.none c none) E (cc0__scdcle_kernel i arg1 harg1 arg2 harg2 arg3 harg3 arg4 harg4 arg5 harg5) K := by
  simp only [cc0__scdcle_kernel_eq_skeleton]; unfold cc0__scdcle_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverOut _)

end Cert.Kernel.Hand

end
-- ==== Proof.KernelDat.lean ====
/-
  The launch of the kernel as printed, read at any float instance, second half of the per-point part: the proof data of the pipeline and the body
  obligation at every grid point.

  After the body at point t each input window's staging buffer still holds its block, and the output window's holds the
  row values of the point's four blocks. The pipeline's invariant is the core's scoped buffers that no window stages, untouched. The 4096 x 256
  matrix is read through two windows at once, so its ownership is dealt to them in two halves; every other array is held
  whole.
-/
import proofs.«168036_j8761733284020_1_alg».proof.Proof.KernelBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (grid0.coords t) (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outBlock (grid0.coords t) (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the input buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelRun.lean ====
/-
  The launch of the kernel as printed, read at any float instance: the whole run.

  Every weakly fair execution of the program terminates without a fault. At the end each array of the pipeline holds
  what the write-backs of the sixteen points left in it, and every buffer that bypasses the region holds what the four
  host lines after the region computed from the region's exit contents. Two things are particular to this program.
  The 4096 x 256 matrix is handed to the region through two windows, so at entry its one buffer is split into two half
  shares, one per window, and no window needs more than to read it. And the four host lines after the region read the
  result array and write only buffers that bypass the region: they run holding the result array and those buffers,
  the other arrays set aside untouched.
  From the run: the two arguments end as launched (no line writes them), and the result buffer ends at the mean of the
  result array's 4096 entries.
-/
import proofs.«168036_j8761733284020_1_alg».proof.Proof.KernelDat
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-! ## The buffers at the region's exit and at the end -/

/-- The result array at its final contents, every other buffer as the region found it. -/
def exitVal (c : Dev nD) : Valuation τ sig (Elt F) := fun b =>
  if h : Proc.devRef .tc main_v8 = b then cast (congrArg (fun b' : DevRef τ sig => b'.ty.Contents (Elt F)) h) ((dats m 0 c).arrAt 4 cfg0.N)
  else V0 m c b

theorem exitVal_v8 (c : Dev nD) : exitVal m c (Proc.devRef .tc main_v8) = (dats m 0 c).arrAt 4 cfg0.N := by
  unfold exitVal; rw [dif_pos rfl]; rfl

theorem exitVal_rest (c : Dev nD) (b : Ref sig .tc) (hb : b ∈ Pipeline.restRefs sig spec0) : exitVal m c (Proc.devRef .tc b) = V m c b := by
  have hne : Proc.devRef (τ := τ) .tc main_v8 ≠ Proc.devRef .tc b := fun e =>
    (by decide : main_v8 ∉ Pipeline.restRefs sig spec0) ((Proc.devRef_injective _ e) ▸ hb)
  unfold exitVal; rw [dif_neg hne]

/-- The buffers after the last four host lines. -/
def endVal (c : Dev nD) (b : Ref sig .tc) : Buf (Elt F) ((c : Thread nD τ).loc b) :=
  StableHlo.after (List.flatten [hostOps1]) (exitVal m c) (Proc.devRef .tc b)

/-! ## The arrays at entry: the shared matrix dealt in two halves -/

theorem arrImage : Finset.univ.image (Pipeline.arrRef spec0) = ([main_v5, main_v7, main_v6, main_v8] : List (Ref sig .tc)).toFinset := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

theorem arr0 (c : Dev nD) (n : Nat) : (View.loc (c : Thread nD τ) (cfg0.win 0).arr.view ↦[(cfg0.win 0).arr.view.set]{(dats m 0 c).share 0} (dats m 0 c).arrAt 0 n : sProp 𝕄)
    = ((c : Thread nD τ).loc main_v5 ↦{fullShare.left} (dats m 0 c).arrAt 0 n) := by
  rw [(arr_whole0 0).set_eq_univ, share0]
theorem arr1 (c : Dev nD) (n : Nat) : (View.loc (c : Thread nD τ) (cfg0.win 1).arr.view ↦[(cfg0.win 1).arr.view.set]{(dats m 0 c).share 1} (dats m 0 c).arrAt 1 n : sProp 𝕄)
    = ((c : Thread nD τ).loc main_v5 ↦{fullShare.right} (dats m 0 c).arrAt 1 n) := by
  rw [(arr_whole0 1).set_eq_univ, share1]
theorem arr2 (c : Dev nD) (n : Nat) : (View.loc (c : Thread nD τ) (cfg0.win 2).arr.view ↦[(cfg0.win 2).arr.view.set]{(dats m 0 c).share 2} (dats m 0 c).arrAt 2 n : sProp 𝕄)
    = ((c : Thread nD τ).loc main_v7 ↦{fullShare} (dats m 0 c).arrAt 2 n) := by
  rw [(arr_whole0 2).set_eq_univ, share2]
theorem arr3 (c : Dev nD) (n : Nat) : (View.loc (c : Thread nD τ) (cfg0.win 3).arr.view ↦[(cfg0.win 3).arr.view.set]{(dats m 0 c).share 3} (dats m 0 c).arrAt 3 n : sProp 𝕄)
    = ((c : Thread nD τ).loc main_v6 ↦{fullShare} (dats m 0 c).arrAt 3 n) := by
  rw [(arr_whole0 3).set_eq_univ, share3]
theorem arr4 (c : Dev nD) (n : Nat) : (View.loc (c : Thread nD τ) (cfg0.win 4).arr.view ↦[(cfg0.win 4).arr.view.set]{(dats m 0 c).share 4} (dats m 0 c).arrAt 4 n : sProp 𝕄)
    = ((c : Thread nD τ).loc main_v8 ↦{fullShare} (dats m 0 c).arrAt 4 n) := by
  rw [(arr_whole0 4).set_eq_univ, share4]

/-- The four distinct buffers behind the five windows, each whole, make the pipeline's arrays at entry: the matrix that two
    windows read is dealt to them in two halves. -/
theorem hsplit (c : Dev nD) : (Pipeline.arrBufs spec0 c (V m c) : sProp 𝕄) ⊢ (dats m 0 c).arrays ((dats m 0 c).arrAt · 0) := by
  unfold Pipeline.arrBufs Dat.arrays
  have hL : (bigSep (Finset.univ.image (Pipeline.arrRef spec0)) fun b => (((c : Thread nD τ).loc b) ↦{fullShare} V m c b : sProp 𝕄))
      = iprop((((c : Thread nD τ).loc main_v5) ↦{fullShare} V m c main_v5) ∗ (((c : Thread nD τ).loc main_v7) ↦{fullShare} V m c main_v7)
          ∗ (((c : Thread nD τ).loc main_v6) ↦{fullShare} V m c main_v6) ∗ (((c : Thread nD τ).loc main_v8) ↦{fullShare} V m c main_v8)) :=
    bigSep_eq_bigSepL_of_eq [main_v5, main_v7, main_v6, main_v8] arrImage (by decide) _
  rw [hL, bigSep_W0, arr0, arr1, arr2, arr3, arr4]
  iintro ⟨H5, H7, H6, H8⟩
  ihave H5' := (pointsTo_share (PosShare.mem_left_op_right fullShare)).1 $$ H5
  icases H5' with ⟨H5a, H5b⟩
  isplitl [H5a]; · iexact H5a
  isplitl [H5b]; · iexact H5b
  isplitl [H7]; · iexact H7
  isplitl [H6]; · iexact H6
  iexact H8

/-! ## The last four host lines -/

/-- The buffers those lines run within: the result array and the buffers that bypass the region. -/
def tailS : Finset (DevRef τ sig) :=
  (insert main_v8 (Pipeline.restRefs sig spec0)).map ⟨Proc.devRef (sig := sig) .tc, Proc.devRef_injective _⟩

theorem v8_not_rest : main_v8 ∉ Pipeline.restRefs sig spec0 := by decide

theorem held_tailS (c : Dev nD) (W : Valuation τ sig (Elt F)) :
    (StableHlo.held (c : Thread nD τ) tailS W : sProp 𝕄)
      = iprop(((c : Thread nD τ).loc main_v8 ↦{fullShare} W (Proc.devRef .tc main_v8))
          ∗ Pipeline.unscopedRest spec0 c (fun b => W (Proc.devRef .tc b))) := by
  unfold StableHlo.held tailS Pipeline.unscopedRest
  rw [bigSep_map, bigSep_insert v8_not_rest]
  rfl

theorem mem_tailS_v8 : Proc.devRef (τ := τ) .tc main_v8 ∈ tailS :=
  Finset.mem_map_of_mem _ (Finset.mem_insert_self _ _)
theorem mem_tailS_rest (b : Ref sig .tc) (hb : b ∈ Pipeline.restRefs sig spec0) : Proc.devRef (τ := τ) .tc b ∈ tailS :=
  Finset.mem_map_of_mem _ (Finset.mem_insert_of_mem hb)

theorem tail_sub : ∀ ops ∈ ([hostOps1] : List (List (HloOp τ sig (Elt F)))), ∀ op ∈ ops, op.bufs ⊆ tailS := by
  have m8 := mem_tailS_v8
  have mc := mem_tailS_rest main_cst (Pipeline.mem_restRefs_of main_cst (by decide) (by decide))
  have m9 := mem_tailS_rest main_v9 (Pipeline.mem_restRefs_of main_v9 (by decide) (by decide))
  have mc0 := mem_tailS_rest main_cst_0 (Pipeline.mem_restRefs_of main_cst_0 (by decide) (by decide))
  have m10 := mem_tailS_rest main_v10 (Pipeline.mem_restRefs_of main_v10 (by decide) (by decide))
  intro ops hops op hop
  simp only [List.mem_cons, List.mem_nil_iff, or_false] at hops
  subst hops
  simp only [hostOps1, List.mem_cons, List.mem_nil_iff, or_false] at hop
  rcases hop with rfl | rfl | rfl | rfl
  all_goals
    simp only [StableHlo.nullary_bufs, StableHlo.binary_bufs, Finset.insert_subset_iff, Finset.singleton_subset_iff, m8, mc, m9, mc0, m10, and_self]

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- None of those lines writes the result array. -/
theorem end_v8 (c : Dev nD) : StableHlo.after (List.flatten [hostOps1]) (exitVal m c) (Proc.devRef .tc main_v8) = (dats m 0 c).arrAt 4 cfg0.N := by
  rw [StableHlo.after_of_forall_not_mem (b := Proc.devRef .tc main_v8) _ _ (List.forall_iff_forall_mem.mp (by
      simp only [hostOps1, List.flatten_cons, List.flatten_nil, List.append_nil, List.cons_append,
        List.nil_append, List.Forall, StableHlo.nullary_writes, StableHlo.binary_writes, Finset.mem_singleton]
      repeat' apply And.intro
      all_goals exact StableHlo.devRef_ne_of_ne (by decide)))]
  exact exitVal_v8 m c

set_option backward.isDefEq.respectTransparency.types false in
theorem htail (c : Dev nD) (Q' : PUnit → sProp 𝕄) :
    iprop((iprop((dats m 0 c).arrays ((dats m 0 c).arrAt · cfg0.N) ∗ Pipeline.unscopedRest spec0 c (endVal m c)) -∗ Q' ⟨⟩)
        ∗ boundary (c : Thread nD τ) ∗ (dats m 0 c).arrays ((dats m 0 c).arrAt · cfg0.N) ∗ Pipeline.unscopedRest spec0 c (V m c))
      ⊢ wp frame (wpE (defs (F := F)) (Variants.lift Variants.none) (c : Thread nD τ) none) Set.univ (Pipeline.chain [StableHlo.seq hostOps1]) Q' := by
  unfold Dat.arrays
  rw [bigSep_W0]
  rw [arr4]
  have hW : (StableHlo.held (c : Thread nD τ) tailS (exitVal m c) : sProp 𝕄)
      = iprop(((c : Thread nD τ).loc main_v8 ↦{fullShare} (dats m 0 c).arrAt 4 cfg0.N) ∗ Pipeline.unscopedRest spec0 c (V m c)) := by
    have e : (Pipeline.unscopedRest (Ix := Unit) (Name := ℕ) (U := UR sig nD τ) (Lvl := ℕ) spec0 c (fun b => exitVal m c (Proc.devRef .tc b)) : sProp 𝕄)
        = Pipeline.unscopedRest spec0 c (V m c) := by
      unfold Pipeline.unscopedRest
      exact bigSep_congr fun b hb => by
        show (((c : Thread nD τ).loc b) ↦{fullShare} exitVal m c (Proc.devRef .tc b) : sProp 𝕄) = _
        rw [exitVal_rest m c b hb]
    rw [held_tailS, exitVal_v8, e]
  have hW' : (StableHlo.held (c : Thread nD τ) tailS (StableHlo.after (List.flatten [hostOps1]) (exitVal m c)) : sProp 𝕄)
      = iprop(((c : Thread nD τ).loc main_v8 ↦{fullShare} (dats m 0 c).arrAt 4 cfg0.N) ∗ Pipeline.unscopedRest spec0 c (endVal m c)) := by
    rw [held_tailS, end_v8]; rfl
  iintro ⟨Hk, Hb, ⟨A0, A1, A2, A3, A4⟩, HZ⟩
  ihave Hh := (Entails.of_eq hW.symm) $$ [A4 HZ]
  · isplitl [A4] <;> iassumption
  have key := Pipeline.wp_seqs_then (Ix := Unit) (Name := ℕ) (U := UR sig nD τ) (Lvl := ℕ) (K := Q') (pcfgs (F := F)) defs₀ Variants.none c tailS [] [hostOps1] (tail_sub) (tail_fresh) (exitVal m c)
  rw [show ((([hostOps1] : List (List (HloOp τ sig (Elt F)))).map StableHlo.seq) ++ []) = [StableHlo.seq hostOps1] from rfl] at key
  ihave K := key $$ [Hb Hh]
  · isplitl [Hb] <;> iassumption
  iapply K
  iintro Hbh
  rw [Pipeline.chain_nil, wp_pure, hW']
  icases Hbh with ⟨Hb, A4, HZ⟩
  imodintro
  iapply Hk
  isplitr [HZ]
  · isplitl [A0]; · iexact A0
    isplitl [A1]; · iexact A1
    isplitl [A2]; · iexact A2
    isplitl [A3]; · iexact A3
    iexact A4
  iexact HZ

set_option backward.isDefEq.respectTransparency.types false in
theorem run_main : θ_run defs (onTc (τ := τ) (main (F := F))) ⟨m, fun _ => 0, ρ⟩
    (fun r => ∀ c : Dev nD, (∀ w, r.2.mem ((spec0 w).arr.view.loc (c : Thread nD τ)) = (dats m 0 c).arrAt w cfg0.N)
      ∧ (∀ b ∈ Pipeline.restRefs sig spec0, r.2.mem ((c : Thread nD τ).loc b) = endVal m c b)) :=
  Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main (fun _ => Pipeline.chain [StableHlo.seq hostOps1])
    (fun c => (body_obligation m c).loose) block_pos0 arr_whole0 stage_whole0 (fun _ _ => rfl)
    (initOf (cells cfgs cellOf_inj) (launchToks cfgs cellOf_inj)) .rfl
    (V m) (hmain m Variants.none) (hsplit m) (fun _ k => k.elim0)
    (fun c => iprop(emp)) (fun c => iprop(emp))
    (fun c => Pipeline.unscopedRest (Ix := Unit) (Name := ℕ) (U := UR sig nD τ) (Lvl := ℕ) spec0 c (V m c))
    (fun c => Pipeline.unscopedRest (Ix := Unit) (Name := ℕ) (U := UR sig nD τ) (Lvl := ℕ) spec0 c (endVal m c))
    (fun c => by
      rw [Pipeline.unscopedRestP_none]
      iintro H; isplitr; · iempintro
      iexact H)
    (fun c => by
      show iprop(_ ∗ _ ∗ Pipeline.scopedRest (Ix := Unit) (Name := ℕ) (U := UR sig nD τ) (Lvl := ℕ) (Val := Elt F) spec0 c)
        ⊢ Pipeline.scopedRest (Ix := Unit) (Name := ℕ) (U := UR sig nD τ) (Lvl := ℕ) (Val := Elt F) spec0 c
      iintro ⟨-, -, HR⟩; iexact HR)
    (fun c => by
      show Pipeline.scopedRest (Ix := Unit) (Name := ℕ) (U := UR sig nD τ) (Lvl := ℕ) (Val := Elt F) spec0 c
        ⊢ iprop(emp ∗ Pipeline.scopedRest (Ix := Unit) (Name := ℕ) (U := UR sig nD τ) (Lvl := ℕ) (Val := Elt F) spec0 c)
      iintro HR; isplitr; · iempintro
      iexact HR)
    (htail m)
    (fun c s => ∀ b ∈ Pipeline.restRefs sig spec0, s.mem ((c : Thread nD τ).loc b) = endVal m c b)
    (fun c s' => by
      iintro ⟨-, HU, HSI⟩
      unfold Pipeline.unscopedRest
      imodintro
      iapply (pointsTo_read_all (Pipeline.restRefs sig spec0) (fun b => (c : Thread nD τ).loc b) (endVal m c) s')
      isplitl [HU] <;> iassumption)
    (fun s h c => ⟨(h c).1, (h c).2.2⟩)

/-! ## The arguments end as launched; the result buffer -/

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

theorem end_arg0 (c : Dev nD) : endVal m c main_arg0 = m ((c : Thread nD τ).loc main_arg0) := by
  unfold endVal
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.binary_writes, Finset.mem_singleton]
      repeat' apply And.intro
      all_goals exact StableHlo.devRef_ne_of_ne (by decide))),
    exitVal_rest m c main_arg0 (Pipeline.mem_restRefs_of main_arg0 (by decide) (by decide))]
  exact V_arg0 m c
theorem end_arg1 (c : Dev nD) : endVal m c main_arg1 = m ((c : Thread nD τ).loc main_arg1) := by
  unfold endVal
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.binary_writes, Finset.mem_singleton]
      repeat' apply And.intro
      all_goals exact StableHlo.devRef_ne_of_ne (by decide))),
    exitVal_rest m c main_arg1 (Pipeline.mem_restRefs_of main_arg1 (by decide) (by decide))]
  exact V_arg1 m c

/-- The result buffer at the end: the sum of the result array's entries from zero, divided by 4096. -/
theorem end_v10 (c : Dev nD) : endVal m c main_v10
    = Host.divf (Host.reduceAdd ((dats m 0 c).arrAt 4 cfg0.N) (constant S_ .f32 0x00000000#32) reducesTo_S4096x1_S_d0_1 h_S_)
        (constant S_ .f32 0x45800000#32) := by
  unfold endVal
  show StableHlo.after hostOps1 (exitVal m c) (Proc.devRef .tc main_v10) = _
  after_results
  rw [exitVal_v8]

/-- The run with its post read at the arguments and at the result buffer. -/
theorem run_result : θ_run defs (onTc (τ := τ) (main (F := F))) ⟨m, fun _ => 0, ρ⟩ (fun r => ∀ c : Dev nD,
      r.2.mem ((c.tc : Thread nD τ).loc main_v10)
        = Host.divf (Host.reduceAdd ((dats m 0 c).arrAt 4 cfg0.N) (constant S_ .f32 0x00000000#32) reducesTo_S4096x1_S_d0_1 h_S_)
            (constant S_ .f32 0x45800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v10 (Pipeline.mem_restRefs_of main_v10 (by decide) (by decide))).trans (end_v10 m c),
     ((h c).2 main_arg0 (Pipeline.mem_restRefs_of main_arg0 (by decide) (by decide))).trans (end_arg0 m c),
     ((h c).2 main_arg1 (Pipeline.mem_restRefs_of main_arg1 (by decide) (by decide))).trans (end_arg1 m c)⟩) (run_main m ρ)

/-- The program runs to its end, and its two arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_result m ρ)

end Cert.Kernel.Hand

end
-- ==== Proof.KernelIdealBody.lean ====
/-
  The idealized kernel's launch, first half: what the region finds, and what one grid point does.

  The program is eight host lines (the view-major relayout of the features, the labels repeated per view, and their
  row and column forms), one region over a grid of 16 points, and four host lines (the mean of the 4096 row values).
  Point t reads rows 256 t .. 256 t + 255 of the 4096 x 256 matrix (window 0) and of the label column (window 2),
  the WHOLE matrix again (window 1: the same array as window 0, which is why the array's ownership is dealt in two
  halves below) and the whole label row (window 3), and writes rows 256 t .. 256 t + 255 of the 4096 x 1 result
  (window 4). The body loads its four input blocks whole, computes, and stores one 256 x 1 block: so after the body
  the output buffer holds one function of the four input blocks and of the point, and the inputs are as they were.
-/
import proofs.«168036_j8761733284020_1_alg».proof.Proof.Gen.KernelIdeal.Launch
import proofs.«168036_j8761733284020_1_alg».proof.Proof.Gen.KernelIdeal.Skeleton
import proofs.«168036_j8761733284020_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents when the region is entered: the launch contents after the eight host lines. -/
abbrev V0 (c : Dev nD) : Valuation τ sig (Elt F) := StableHlo.after (List.flatten [hostOps0]) (fun b => m (c, b))
/-- The same at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines, the region, and the region's continuation by the last four lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (where it is not fetched
    the block's index has not moved), for any proof data over the region-entry arrays whose body leaves inputs alone. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body reads and writes -/

abbrev rQ : Rect S256x256 := Rect.unit (s := S256x256) ![0, 0] S256x256.size inb_S256x256_S256x256_0_0
abbrev rK : Rect S4096x256 := Rect.unit (s := S4096x256) ![0, 0] S4096x256.size inb_S4096x256_S4096x256_0_0
abbrev rC : Rect S256x1 := Rect.unit (s := S256x1) ![0, 0] S256x1.size inb_S256x1_S256x1_0_0
abbrev rR : Rect S1x4096 := Rect.unit (s := S1x4096) ![0, 0] S1x4096.size inb_S1x4096_S1x4096_0_0

/-- The output buffer after the body at grid coordinates `i`: its one store, of the row values computed from the four
    input blocks. -/
def outBlock (i : grid0.Coords) (x0 : Vec F S256x256 .bf16) (x1 : Vec F S4096x256 .bf16) (x2 : Vec F S256x1 .i32) (x3 : Vec F S1x4096 .i32) :
    Vec F S256x1 .f32 :=
  View.canon [⟨rC, k0_pay1 (k0_pay3 i (View.ld x2 rC) (View.ld x3 rR)) (k0_pay4 i (View.ld x0 rQ) (View.ld x1 rK) (View.ld x2 rC) (View.ld x3 rR))⟩]

/-- The one store covers the buffer. -/
theorem coverOut (p0 : Vec F S256x1 .f32) (y : S256x1.Idx) :
    ∃ pc ∈ ([⟨rC, p0⟩] : List (View.Piece (Elt F) S256x1 .f32)), y ∈ pc.1.set :=
  View.cover_of_tiled [⟨rC, p0⟩] S256x1.size (by rfl) y

/-! ## The body's triple -/

set_option maxHeartbeats 1000000 in
/-- The body on whole staging buffers, the inputs at contents `x0 … x3` and the output at anything, runs to its end
    with the inputs as they were and the output at `outBlock` of them. -/
theorem sound_kernel (c : Dev nD) (E : Set ℕ) (i : grid0.Coords)
    (arg1 : Memref sig .tc .vmem S256x256 .bf16) (harg1 : arg1.IsWhole) (arg2 : Memref sig .tc .vmem S4096x256 .bf16) (harg2 : arg2.IsWhole)
    (arg3 : Memref sig .tc .vmem S256x1 .i32) (harg3 : arg3.IsWhole) (arg4 : Memref sig .tc .vmem S1x4096 .i32) (harg4 : arg4.IsWhole)
    (arg5 : Memref sig .tc .vmem S256x1 .f32) (harg5 : arg5.IsWhole)
    (x0 : Vec F S256x256 .bf16) (x1 : Vec F S4096x256 .bf16) (x2 : Vec F S256x1 .i32) (x3 : Vec F S1x4096 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlock i x0 x1 x2 x3)) -∗ K ⟨⟩))
      ⊢ wp frame (wpE (defs₀ (F := F)) Variants.none c none) E (cc0__scdcle_kernel i arg1 harg1 arg2 harg2 arg3 harg3 arg4 harg4 arg5 harg5) K := by
  simp only [cc0__scdcle_kernel_eq_skeleton]; unfold cc0__scdcle_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverOut _)

end Cert.KernelIdeal.Hand

end
-- ==== Proof.KernelIdealDat.lean ====
/-
  The idealized kernel's launch, second half of the per-point part: the proof data of the pipeline and the body
  obligation at every grid point.

  After the body at point t each input window's staging buffer still holds its block, and the output window's holds the
  row values of the point's four blocks. The pipeline's invariant is the core's scoped buffers that no window stages, untouched. The 4096 x 256
  matrix is read through two windows at once, so its ownership is dealt to them in two halves; every other array is held
  whole.
-/
import proofs.«168036_j8761733284020_1_alg».proof.Proof.KernelIdealBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (grid0.coords t) (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outBlock (grid0.coords t) (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the input buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealRun.lean ====
/-
  The idealized kernel's launch: the whole run.

  Every weakly fair execution of the program terminates without a fault. At the end each array of the pipeline holds
  what the write-backs of the sixteen points left in it, and every buffer that bypasses the region holds what the four
  host lines after the region computed from the region's exit contents. Two things are particular to this program.
  The 4096 x 256 matrix is handed to the region through two windows, so at entry its one buffer is split into two half
  shares, one per window, and no window needs more than to read it. And the four host lines after the region read the
  result array and write only buffers that bypass the region: they run holding the result array and those buffers,
  the other arrays set aside untouched.
  From the run: the two arguments end as launched (no line writes them), and the result buffer ends at the mean of the
  result array's 4096 entries.
-/
import proofs.«168036_j8761733284020_1_alg».proof.Proof.KernelIdealDat
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-! ## The buffers at the region's exit and at the end -/

/-- The result array at its final contents, every other buffer as the region found it. -/
def exitVal (c : Dev nD) : Valuation τ sig (Elt F) := fun b =>
  if h : Proc.devRef .tc main_v8 = b then cast (congrArg (fun b' : DevRef τ sig => b'.ty.Contents (Elt F)) h) ((dats m 0 c).arrAt 4 cfg0.N)
  else V0 m c b

theorem exitVal_v8 (c : Dev nD) : exitVal m c (Proc.devRef .tc main_v8) = (dats m 0 c).arrAt 4 cfg0.N := by
  unfold exitVal; rw [dif_pos rfl]; rfl

theorem exitVal_rest (c : Dev nD) (b : Ref sig .tc) (hb : b ∈ Pipeline.restRefs sig spec0) : exitVal m c (Proc.devRef .tc b) = V m c b := by
  have hne : Proc.devRef (τ := τ) .tc main_v8 ≠ Proc.devRef .tc b := fun e =>
    (by decide : main_v8 ∉ Pipeline.restRefs sig spec0) ((Proc.devRef_injective _ e) ▸ hb)
  unfold exitVal; rw [dif_neg hne]

/-- The buffers after the last four host lines. -/
def endVal (c : Dev nD) (b : Ref sig .tc) : Buf (Elt F) ((c : Thread nD τ).loc b) :=
  StableHlo.after (List.flatten [hostOps1]) (exitVal m c) (Proc.devRef .tc b)

/-! ## The arrays at entry: the shared matrix dealt in two halves -/

theorem arrImage : Finset.univ.image (Pipeline.arrRef spec0) = ([main_v5, main_v7, main_v6, main_v8] : List (Ref sig .tc)).toFinset := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

theorem arr0 (c : Dev nD) (n : Nat) : (View.loc (c : Thread nD τ) (cfg0.win 0).arr.view ↦[(cfg0.win 0).arr.view.set]{(dats m 0 c).share 0} (dats m 0 c).arrAt 0 n : sProp 𝕄)
    = ((c : Thread nD τ).loc main_v5 ↦{fullShare.left} (dats m 0 c).arrAt 0 n) := by
  rw [(arr_whole0 0).set_eq_univ, share0]
theorem arr1 (c : Dev nD) (n : Nat) : (View.loc (c : Thread nD τ) (cfg0.win 1).arr.view ↦[(cfg0.win 1).arr.view.set]{(dats m 0 c).share 1} (dats m 0 c).arrAt 1 n : sProp 𝕄)
    = ((c : Thread nD τ).loc main_v5 ↦{fullShare.right} (dats m 0 c).arrAt 1 n) := by
  rw [(arr_whole0 1).set_eq_univ, share1]
theorem arr2 (c : Dev nD) (n : Nat) : (View.loc (c : Thread nD τ) (cfg0.win 2).arr.view ↦[(cfg0.win 2).arr.view.set]{(dats m 0 c).share 2} (dats m 0 c).arrAt 2 n : sProp 𝕄)
    = ((c : Thread nD τ).loc main_v7 ↦{fullShare} (dats m 0 c).arrAt 2 n) := by
  rw [(arr_whole0 2).set_eq_univ, share2]
theorem arr3 (c : Dev nD) (n : Nat) : (View.loc (c : Thread nD τ) (cfg0.win 3).arr.view ↦[(cfg0.win 3).arr.view.set]{(dats m 0 c).share 3} (dats m 0 c).arrAt 3 n : sProp 𝕄)
    = ((c : Thread nD τ).loc main_v6 ↦{fullShare} (dats m 0 c).arrAt 3 n) := by
  rw [(arr_whole0 3).set_eq_univ, share3]
theorem arr4 (c : Dev nD) (n : Nat) : (View.loc (c : Thread nD τ) (cfg0.win 4).arr.view ↦[(cfg0.win 4).arr.view.set]{(dats m 0 c).share 4} (dats m 0 c).arrAt 4 n : sProp 𝕄)
    = ((c : Thread nD τ).loc main_v8 ↦{fullShare} (dats m 0 c).arrAt 4 n) := by
  rw [(arr_whole0 4).set_eq_univ, share4]

/-- The four distinct buffers behind the five windows, each whole, make the pipeline's arrays at entry: the matrix that two
    windows read is dealt to them in two halves. -/
theorem hsplit (c : Dev nD) : (Pipeline.arrBufs spec0 c (V m c) : sProp 𝕄) ⊢ (dats m 0 c).arrays ((dats m 0 c).arrAt · 0) := by
  unfold Pipeline.arrBufs Dat.arrays
  have hL : (bigSep (Finset.univ.image (Pipeline.arrRef spec0)) fun b => (((c : Thread nD τ).loc b) ↦{fullShare} V m c b : sProp 𝕄))
      = iprop((((c : Thread nD τ).loc main_v5) ↦{fullShare} V m c main_v5) ∗ (((c : Thread nD τ).loc main_v7) ↦{fullShare} V m c main_v7)
          ∗ (((c : Thread nD τ).loc main_v6) ↦{fullShare} V m c main_v6) ∗ (((c : Thread nD τ).loc main_v8) ↦{fullShare} V m c main_v8)) :=
    bigSep_eq_bigSepL_of_eq [main_v5, main_v7, main_v6, main_v8] arrImage (by decide) _
  rw [hL, bigSep_W0, arr0, arr1, arr2, arr3, arr4]
  iintro ⟨H5, H7, H6, H8⟩
  ihave H5' := (pointsTo_share (PosShare.mem_left_op_right fullShare)).1 $$ H5
  icases H5' with ⟨H5a, H5b⟩
  isplitl [H5a]; · iexact H5a
  isplitl [H5b]; · iexact H5b
  isplitl [H7]; · iexact H7
  isplitl [H6]; · iexact H6
  iexact H8

/-! ## The last four host lines -/

/-- The buffers those lines run within: the result array and the buffers that bypass the region. -/
def tailS : Finset (DevRef τ sig) :=
  (insert main_v8 (Pipeline.restRefs sig spec0)).map ⟨Proc.devRef (sig := sig) .tc, Proc.devRef_injective _⟩

theorem v8_not_rest : main_v8 ∉ Pipeline.restRefs sig spec0 := by decide

theorem held_tailS (c : Dev nD) (W : Valuation τ sig (Elt F)) :
    (StableHlo.held (c : Thread nD τ) tailS W : sProp 𝕄)
      = iprop(((c : Thread nD τ).loc main_v8 ↦{fullShare} W (Proc.devRef .tc main_v8))
          ∗ Pipeline.unscopedRest spec0 c (fun b => W (Proc.devRef .tc b))) := by
  unfold StableHlo.held tailS Pipeline.unscopedRest
  rw [bigSep_map, bigSep_insert v8_not_rest]
  rfl

theorem mem_tailS_v8 : Proc.devRef (τ := τ) .tc main_v8 ∈ tailS :=
  Finset.mem_map_of_mem _ (Finset.mem_insert_self _ _)
theorem mem_tailS_rest (b : Ref sig .tc) (hb : b ∈ Pipeline.restRefs sig spec0) : Proc.devRef (τ := τ) .tc b ∈ tailS :=
  Finset.mem_map_of_mem _ (Finset.mem_insert_of_mem hb)

theorem tail_sub : ∀ ops ∈ ([hostOps1] : List (List (HloOp τ sig (Elt F)))), ∀ op ∈ ops, op.bufs ⊆ tailS := by
  have m8 := mem_tailS_v8
  have mc := mem_tailS_rest main_cst (Pipeline.mem_restRefs_of main_cst (by decide) (by decide))
  have m9 := mem_tailS_rest main_v9 (Pipeline.mem_restRefs_of main_v9 (by decide) (by decide))
  have mc0 := mem_tailS_rest main_cst_0 (Pipeline.mem_restRefs_of main_cst_0 (by decide) (by decide))
  have m10 := mem_tailS_rest main_v10 (Pipeline.mem_restRefs_of main_v10 (by decide) (by decide))
  intro ops hops op hop
  simp only [List.mem_cons, List.mem_nil_iff, or_false] at hops
  subst hops
  simp only [hostOps1, List.mem_cons, List.mem_nil_iff, or_false] at hop
  rcases hop with rfl | rfl | rfl | rfl
  all_goals
    simp only [StableHlo.nullary_bufs, StableHlo.binary_bufs, Finset.insert_subset_iff, Finset.singleton_subset_iff, m8, mc, m9, mc0, m10, and_self]

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- None of those lines writes the result array. -/
theorem end_v8 (c : Dev nD) : StableHlo.after (List.flatten [hostOps1]) (exitVal m c) (Proc.devRef .tc main_v8) = (dats m 0 c).arrAt 4 cfg0.N := by
  rw [StableHlo.after_of_forall_not_mem (b := Proc.devRef .tc main_v8) _ _ (List.forall_iff_forall_mem.mp (by
      simp only [hostOps1, List.flatten_cons, List.flatten_nil, List.append_nil, List.cons_append,
        List.nil_append, List.Forall, StableHlo.nullary_writes, StableHlo.binary_writes, Finset.mem_singleton]
      repeat' apply And.intro
      all_goals exact StableHlo.devRef_ne_of_ne (by decide)))]
  exact exitVal_v8 m c

set_option backward.isDefEq.respectTransparency.types false in
theorem htail (c : Dev nD) (Q' : PUnit → sProp 𝕄) :
    iprop((iprop((dats m 0 c).arrays ((dats m 0 c).arrAt · cfg0.N) ∗ Pipeline.unscopedRest spec0 c (endVal m c)) -∗ Q' ⟨⟩)
        ∗ boundary (c : Thread nD τ) ∗ (dats m 0 c).arrays ((dats m 0 c).arrAt · cfg0.N) ∗ Pipeline.unscopedRest spec0 c (V m c))
      ⊢ wp frame (wpE (defs (F := F)) (Variants.lift Variants.none) (c : Thread nD τ) none) Set.univ (Pipeline.chain [StableHlo.seq hostOps1]) Q' := by
  unfold Dat.arrays
  rw [bigSep_W0]
  rw [arr4]
  have hW : (StableHlo.held (c : Thread nD τ) tailS (exitVal m c) : sProp 𝕄)
      = iprop(((c : Thread nD τ).loc main_v8 ↦{fullShare} (dats m 0 c).arrAt 4 cfg0.N) ∗ Pipeline.unscopedRest spec0 c (V m c)) := by
    have e : (Pipeline.unscopedRest (Ix := Unit) (Name := ℕ) (U := UR sig nD τ) (Lvl := ℕ) spec0 c (fun b => exitVal m c (Proc.devRef .tc b)) : sProp 𝕄)
        = Pipeline.unscopedRest spec0 c (V m c) := by
      unfold Pipeline.unscopedRest
      exact bigSep_congr fun b hb => by
        show (((c : Thread nD τ).loc b) ↦{fullShare} exitVal m c (Proc.devRef .tc b) : sProp 𝕄) = _
        rw [exitVal_rest m c b hb]
    rw [held_tailS, exitVal_v8, e]
  have hW' : (StableHlo.held (c : Thread nD τ) tailS (StableHlo.after (List.flatten [hostOps1]) (exitVal m c)) : sProp 𝕄)
      = iprop(((c : Thread nD τ).loc main_v8 ↦{fullShare} (dats m 0 c).arrAt 4 cfg0.N) ∗ Pipeline.unscopedRest spec0 c (endVal m c)) := by
    rw [held_tailS, end_v8]; rfl
  iintro ⟨Hk, Hb, ⟨A0, A1, A2, A3, A4⟩, HZ⟩
  ihave Hh := (Entails.of_eq hW.symm) $$ [A4 HZ]
  · isplitl [A4] <;> iassumption
  have key := Pipeline.wp_seqs_then (Ix := Unit) (Name := ℕ) (U := UR sig nD τ) (Lvl := ℕ) (K := Q') (pcfgs (F := F)) defs₀ Variants.none c tailS [] [hostOps1] (tail_sub) (tail_fresh) (exitVal m c)
  rw [show ((([hostOps1] : List (List (HloOp τ sig (Elt F)))).map StableHlo.seq) ++ []) = [StableHlo.seq hostOps1] from rfl] at key
  ihave K := key $$ [Hb Hh]
  · isplitl [Hb] <;> iassumption
  iapply K
  iintro Hbh
  rw [Pipeline.chain_nil, wp_pure, hW']
  icases Hbh with ⟨Hb, A4, HZ⟩
  imodintro
  iapply Hk
  isplitr [HZ]
  · isplitl [A0]; · iexact A0
    isplitl [A1]; · iexact A1
    isplitl [A2]; · iexact A2
    isplitl [A3]; · iexact A3
    iexact A4
  iexact HZ

set_option backward.isDefEq.respectTransparency.types false in
theorem run_main : θ_run defs (onTc (τ := τ) (main (F := F))) ⟨m, fun _ => 0, ρ⟩
    (fun r => ∀ c : Dev nD, (∀ w, r.2.mem ((spec0 w).arr.view.loc (c : Thread nD τ)) = (dats m 0 c).arrAt w cfg0.N)
      ∧ (∀ b ∈ Pipeline.restRefs sig spec0, r.2.mem ((c : Thread nD τ).loc b) = endVal m c b)) :=
  Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main (fun _ => Pipeline.chain [StableHlo.seq hostOps1])
    (fun c => (body_obligation m c).loose) block_pos0 arr_whole0 stage_whole0 (fun _ _ => rfl)
    (initOf (cells cfgs cellOf_inj) (launchToks cfgs cellOf_inj)) .rfl
    (V m) (hmain m Variants.none) (hsplit m) (fun _ k => k.elim0)
    (fun c => iprop(emp)) (fun c => iprop(emp))
    (fun c => Pipeline.unscopedRest (Ix := Unit) (Name := ℕ) (U := UR sig nD τ) (Lvl := ℕ) spec0 c (V m c))
    (fun c => Pipeline.unscopedRest (Ix := Unit) (Name := ℕ) (U := UR sig nD τ) (Lvl := ℕ) spec0 c (endVal m c))
    (fun c => by
      rw [Pipeline.unscopedRestP_none]
      iintro H; isplitr; · iempintro
      iexact H)
    (fun c => by
      show iprop(_ ∗ _ ∗ Pipeline.scopedRest (Ix := Unit) (Name := ℕ) (U := UR sig nD τ) (Lvl := ℕ) (Val := Elt F) spec0 c)
        ⊢ Pipeline.scopedRest (Ix := Unit) (Name := ℕ) (U := UR sig nD τ) (Lvl := ℕ) (Val := Elt F) spec0 c
      iintro ⟨-, -, HR⟩; iexact HR)
    (fun c => by
      show Pipeline.scopedRest (Ix := Unit) (Name := ℕ) (U := UR sig nD τ) (Lvl := ℕ) (Val := Elt F) spec0 c
        ⊢ iprop(emp ∗ Pipeline.scopedRest (Ix := Unit) (Name := ℕ) (U := UR sig nD τ) (Lvl := ℕ) (Val := Elt F) spec0 c)
      iintro HR; isplitr; · iempintro
      iexact HR)
    (htail m)
    (fun c s => ∀ b ∈ Pipeline.restRefs sig spec0, s.mem ((c : Thread nD τ).loc b) = endVal m c b)
    (fun c s' => by
      iintro ⟨-, HU, HSI⟩
      unfold Pipeline.unscopedRest
      imodintro
      iapply (pointsTo_read_all (Pipeline.restRefs sig spec0) (fun b => (c : Thread nD τ).loc b) (endVal m c) s')
      isplitl [HU] <;> iassumption)
    (fun s h c => ⟨(h c).1, (h c).2.2⟩)

/-! ## The arguments end as launched; the result buffer -/

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

theorem end_arg0 (c : Dev nD) : endVal m c main_arg0 = m ((c : Thread nD τ).loc main_arg0) := by
  unfold endVal
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.binary_writes, Finset.mem_singleton]
      repeat' apply And.intro
      all_goals exact StableHlo.devRef_ne_of_ne (by decide))),
    exitVal_rest m c main_arg0 (Pipeline.mem_restRefs_of main_arg0 (by decide) (by decide))]
  exact V_arg0 m c
theorem end_arg1 (c : Dev nD) : endVal m c main_arg1 = m ((c : Thread nD τ).loc main_arg1) := by
  unfold endVal
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.binary_writes, Finset.mem_singleton]
      repeat' apply And.intro
      all_goals exact StableHlo.devRef_ne_of_ne (by decide))),
    exitVal_rest m c main_arg1 (Pipeline.mem_restRefs_of main_arg1 (by decide) (by decide))]
  exact V_arg1 m c

/-- The result buffer at the end: the sum of the result array's entries from zero, divided by 4096. -/
theorem end_v10 (c : Dev nD) : endVal m c main_v10
    = Host.divf (Host.reduceAdd ((dats m 0 c).arrAt 4 cfg0.N) (constant S_ .f32 0x00000000#32) reducesTo_S4096x1_S_d0_1 h_S_)
        (constant S_ .f32 0x45800000#32) := by
  unfold endVal
  show StableHlo.after hostOps1 (exitVal m c) (Proc.devRef .tc main_v10) = _
  after_results
  rw [exitVal_v8]

/-- The run with its post read at the arguments and at the result buffer. -/
theorem run_result : θ_run defs (onTc (τ := τ) (main (F := F))) ⟨m, fun _ => 0, ρ⟩ (fun r => ∀ c : Dev nD,
      r.2.mem ((c.tc : Thread nD τ).loc main_v10)
        = Host.divf (Host.reduceAdd ((dats m 0 c).arrAt 4 cfg0.N) (constant S_ .f32 0x00000000#32) reducesTo_S4096x1_S_d0_1 h_S_)
            (constant S_ .f32 0x45800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v10 (Pipeline.mem_restRefs_of main_v10 (by decide) (by decide))).trans (end_v10 m c),
     ((h c).2 main_arg0 (Pipeline.mem_restRefs_of main_arg0 (by decide) (by decide))).trans (end_arg0 m c),
     ((h c).2 main_arg1 (Pipeline.mem_restRefs_of main_arg1 (by decide) (by decide))).trans (end_arg1 m c)⟩) (run_main m ρ)

/-- The program runs to its end, and its two arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_result m ρ)

end Cert.KernelIdeal.Hand

end
-- ==== Proof.PayLayout.lean ====
/-
  Column forms of two layout operations, read at an index given by coordinates.

  A vector of length a viewed as an a x 1 column has, at (i, u), the vector's entry i (the unit coordinate u carries no
  information); an a x 1 column repeated along b lanes has, at (p, c), the column's entry at row p.
-/
import Idealize.ShloMosaic.Lib.ValueLayout

namespace Cert.KernelValue

open Idealize.ShloMosaic Idealize.ShloMosaic.ValueIdx

variable {α : Type}

/-- An `[a]` array cast to `[a, 1]` reads, at `(i, u)`, the operand at `i`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KernelValue
-- ==== Proof.PayMask.lean ====
/-
  The two 0/1 masks of the kernel body, read at one entry (r, j) of the 256 x 4096 tile.

  The label test compares the label of row r of the block with the label of column j. The self test compares the
  position of row r in the whole matrix, (grid coordinate) * 256 + r, with j: both numbers are below 2^32, so the
  equality of the two 32-bit words is the equality of the numbers. The "same class, not self" mask is the conjunction
  of the label test with the negated self test, the "other class" mask the negated label test; turned into floats a
  one-bit word is 1 or 0.
-/
import proofs.«168036_j8761733284020_1_alg».proof.Proof.Gen.KernelIdeal.Skeleton
import proofs.«168036_j8761733284020_1_alg».proof.Proof.PayLayout

noncomputable section

namespace Cert.KernelValue

open Idealize.ShloMosaic Idealize.ShloMosaic.ValueIdx Cert.KernelIdeal

/-! ## Words -/

/-- The word of (g * 256 + r), computed in 32-bit arithmetic, equals the word of j exactly when the numbers agree. -/
theorem self_word_iff (g : ℕ) (hg : g < 16) (r : Fin 256) (j : Fin 4096) :
    IntOp.cmpi .eq (IntOp.addi (Scalar.muli (BitVec.ofNat 32 g) 256#32) (BitVec.ofNat 32 r.val)) (BitVec.ofNat 32 j.val) = 1#1
      ↔ j.val = g * 256 + r.val := by
  rw [IntOp.cmpi_eq]
  have hr := r.isLt
  have hj := j.isLt
  constructor
  · intro h
    have h' := congrArg BitVec.toNat h
    simp only [IntOp.addi, Scalar.muli, IntOp.muli, BitVec.toNat_add, BitVec.toNat_mul, BitVec.toNat_ofNat] at h'
    omega
  · intro h
    apply BitVec.eq_of_toNat_eq
    simp only [IntOp.addi, Scalar.muli, IntOp.muli, BitVec.toNat_add, BitVec.toNat_mul, BitVec.toNat_ofNat]
    omega

/-- A one-bit word, widened to 32 bits and read as a signed integer, is the float 1 or 0. -/
theorem sitofp_bit (b : BitVec 1) :
    (FloatOps.sitofp .f32 (b.setWidth 32) : Ideal .f32) = if b = 1#1 then (1 : EReal) else 0 := by
  rcases BitVec.eq_zero_or_eq_one b with rfl | rfl
  · show (((BitVec.setWidth 32 0#1).toInt : ℝ) : EReal) = _
    rw [show (BitVec.setWidth 32 0#1).toInt = 0 by decide, if_neg (by decide)]
    simp
  · show (((BitVec.setWidth 32 1#1).toInt : ℝ) : EReal) = _
    rw [show (BitVec.setWidth 32 1#1).toInt = 1 by decide, if_pos rfl]
    simp

/-- "b and not c" is 1 exactly when b is 1 and c is not. -/
theorem andi_xori_one_iff (b c : BitVec 1) : IntOp.andi b (IntOp.xori c 1#1) = 1#1 ↔ b = 1#1 ∧ ¬c = 1#1 := by
  revert b c; decide

/-- "not b" is 1 exactly when b is not. -/
theorem xori_one_iff (b : BitVec 1) : IntOp.xori b 1#1 = 1#1 ↔ ¬b = 1#1 := by
  revert b; decide

/-! ## The label test at an entry -/

/-- The label test at (r, j): the word comparing row r's label with column j's label. -/
theorem pay2_apply (lq : Vec Ideal S256x1 .i32) (lk : Vec Ideal S1x4096 .i32) (r : Fin 256) (j : Fin 4096) :
    Gen.k0_pay2 (F := Ideal) lq lk (ix2 r j) = IntOp.cmpi .eq (lq (ix2 r (0 : Fin 1))) (lk (ix2 (0 : Fin 1) j)) := by
  unfold Gen.k0_pay2
  show IntOp.cmpi .eq (broadcastTo S256x4096 (shapeCast S256x1 lq _) _ (ix2 r j))
      (broadcastTo S256x4096 (shapeCast S1x4096 lk _) _ (ix2 r j)) = _
  rw [broadcastTo_a1_ab_apply, broadcastTo_1b_ab_apply, shapeCast_self, shapeCast_self]

/-- … which is 1 exactly when the two labels are the same word. -/
theorem pay2_eq_one_iff (lq : Vec Ideal S256x1 .i32) (lk : Vec Ideal S1x4096 .i32) (r : Fin 256) (j : Fin 4096) :
    Gen.k0_pay2 (F := Ideal) lq lk (ix2 r j) = 1#1 ↔ lq (ix2 r (0 : Fin 1)) = lk (ix2 (0 : Fin 1) j) := by
  rw [pay2_apply, IntOp.cmpi_eq]

/-! ## The two float masks at an entry -/

/-- The "other class" mask at (r, j): 0 where the labels agree, 1 where they differ. -/
theorem other_apply (lq : Vec Ideal S256x1 .i32) (lk : Vec Ideal S1x4096 .i32) (r : Fin 256) (j : Fin 4096) :
    (sitofp .f32 (extui 32 (xori (Gen.k0_pay2 (F := Ideal) lq lk) (constantI S256x4096 1 1#1)) Gen.natLt_1_32)
        : FVec Ideal S256x4096 .f32) (ix2 r j)
      = if lq (ix2 r (0 : Fin 1)) = lk (ix2 (0 : Fin 1) j) then (0 : EReal) else 1 := by
  show (FloatOps.sitofp .f32 ((IntOp.xori (Gen.k0_pay2 (F := Ideal) lq lk (ix2 r j)) 1#1).setWidth 32) : Ideal .f32) = _
  rw [sitofp_bit, if_congr (xori_one_iff _) rfl rfl, if_congr (not_congr (pay2_eq_one_iff lq lk r j)) rfl rfl]
  by_cases h : lq (ix2 r (0 : Fin 1)) = lk (ix2 (0 : Fin 1) j)
  · rw [if_neg (not_not.mpr h), if_pos h]
  · rw [if_pos h, if_neg h]

/-- The "same class, not self" mask at (r, j), at grid point i: 1 where the labels agree and j is not the position
    (i 0) * 256 + r of row r in the whole matrix, else 0. -/
theorem pay3_apply (i : grid0.Coords) (lq : Vec Ideal S256x1 .i32) (lk : Vec Ideal S1x4096 .i32) (r : Fin 256) (j : Fin 4096)
    (hself : (i 0).val * 256 + r.val < 4096) :
    Gen.k0_pay3 (F := Ideal) i lq lk (ix2 r j)
      = if lq (ix2 r (0 : Fin 1)) = lk (ix2 (0 : Fin 1) j) ∧ j ≠ (⟨(i 0).val * 256 + r.val, hself⟩ : Fin 4096) then (1 : EReal) else 0 := by
  have hg : (i 0).val < 16 := (i 0).isLt
  unfold Gen.k0_pay3
  show (FloatOps.sitofp .f32 ((IntOp.andi (Gen.k0_pay2 (F := Ideal) lq lk (ix2 r j))
      (IntOp.xori (IntOp.cmpi .eq
        (broadcastTo S256x4096 (addi (broadcast S256x1 (Scalar.muli (BitVec.ofNat 32 (i 0).val) 256#32))
          (iota .tc S256x1 32 [0] _)) _ (ix2 r j))
        (broadcastTo S256x4096 (iota .tc S1x4096 32 [1] _) _ (ix2 r j))) 1#1)).setWidth 32) : Ideal .f32) = _
  rw [broadcastTo_a1_ab_apply, broadcastTo_1b_ab_apply]
  show (FloatOps.sitofp .f32 ((IntOp.andi (Gen.k0_pay2 (F := Ideal) lq lk (ix2 r j))
      (IntOp.xori (IntOp.cmpi .eq
        (IntOp.addi (Scalar.muli (BitVec.ofNat 32 (i 0).val) 256#32) (iota .tc S256x1 32 [0] _ (ix2 r (0 : Fin 1))))
        (iota .tc S1x4096 32 [1] _ (ix2 (0 : Fin 1) j))) 1#1)).setWidth 32) : Ideal .f32) = _
  rw [iota_single_apply, iota_single_apply]
  show (FloatOps.sitofp .f32 ((IntOp.andi (Gen.k0_pay2 (F := Ideal) lq lk (ix2 r j))
      (IntOp.xori (IntOp.cmpi .eq
        (IntOp.addi (Scalar.muli (BitVec.ofNat 32 (i 0).val) 256#32) (BitVec.ofNat 32 r.val))
        (BitVec.ofNat 32 j.val)) 1#1)).setWidth 32) : Ideal .f32) = _
  rw [sitofp_bit]
  refine if_congr ?_ rfl rfl
  rw [andi_xori_one_iff, pay2_eq_one_iff, self_word_iff _ hg]
  exact and_congr_right fun _ => not_congr ⟨fun h => Fin.ext h, fun h => congrArg Fin.val h⟩

end Cert.KernelValue

end
-- ==== Proof.Spec.lean ====
/-
  The loss both programs compute, as ONE function of the two argument arrays, on the extended reals.

  The 256 x 16 x 256 array of features is read view-major as a 4096 x 256 matrix C (row n is anchor n % 256 seen in
  view n / 256), and the 256 class labels are repeated once per view (row n carries label n % 256). For each row n:
  the scaled similarities s j = <C n, C j> * (1/T) over all 4096 rows j, shifted by their maximum; N, the sum of the
  exponentials over the rows of ANOTHER class; the log-ratio z j - log (exp (z j) + N); and minus its mean over the
  rows of the SAME class other than n itself. The loss is the mean of the 4096 row values.

  1/T is the exact reciprocal of the single-precision number nearest 0.07, which is 9395241 / 2^27.
-/
import Idealize.ShloMosaic.PureOps.Ideal
import Idealize.ShloMosaic.Lib.ValueIdx

noncomputable section

namespace Cert.Spec

open Idealize.ShloMosaic

/-- The reciprocal of the temperature: 2^27 / 9395241. -/
def invTemp : EReal := ((134217728 / 9395241 : ℝ) : EReal)

/-- Row `n`, column `d` of the view-major matrix: anchor `n % 256`, view `n / 256`. -/
def contrast (x : FVec Ideal ⟨3, ![256, 16, 256]⟩ .f32) (n : Fin 4096) (d : Fin 256) : EReal :=
  x (ValueIdx.ix3 (⟨n.val % 256, Nat.mod_lt _ (by decide)⟩ : Fin 256) (⟨n.val / 256, by omega⟩ : Fin 16) d)

/-- The label of row `n`: the labels repeated once per view. -/
def lbl (lab : IVec ⟨1, ![256]⟩ 32) (n : Fin 4096) : BitVec 32 :=
  lab (ValueIdx.ix1 (⟨n.val % 256, Nat.mod_lt _ (by decide)⟩ : Fin 256))

/-- One row's value: `q` the row, `K` all rows, `lq` its label, `lk` all labels, `self` its own position. -/
def rowLoss (q : Fin 256 → EReal) (K : Fin 4096 → Fin 256 → EReal) (lq : BitVec 32) (lk : Fin 4096 → BitVec 32)
    (self : Fin 4096) : EReal :=
  let s : Fin 4096 → EReal := fun j => (∑ d : Fin 256, q d * K j d) * invTemp
  let M : EReal := (Finset.univ : Finset (Fin 4096)).fold max ⊥ s
  let z : Fin 4096 → EReal := fun j => s j - M
  let e : Fin 4096 → EReal := fun j => Ideal.exp (z j)
  let other : Fin 4096 → EReal := fun j => if lq = lk j then 0 else 1
  let same : Fin 4096 → EReal := fun j => if lq = lk j ∧ j ≠ self then 1 else 0
  let N : EReal := ∑ j : Fin 4096, e j * other j
  let lp : Fin 4096 → EReal := fun j => z j - Ideal.log (e j + N)
  Ideal.ofBits .f32 0xBF800000#32 * Ideal.div (∑ j : Fin 4096, same j * lp j) (∑ j : Fin 4096, same j)

/-- The mean of the row values. -/
def loss (x : FVec Ideal ⟨3, ![256, 16, 256]⟩ .f32) (lab : IVec ⟨1, ![256]⟩ 32) : EReal :=
  Ideal.div (Ideal.ofBits .f32 0x00000000#32 + ∑ n : Fin 4096, rowLoss (contrast x n) (contrast x) (lbl lab n) (lbl lab) n)
    (Ideal.ofBits .f32 0x45800000#32)

end Cert.Spec

end
-- ==== Proof.PayLogits.lean ====
/-
  The scaled similarities of one tile and their shift by the row maximum, read at one entry (r, j).

  The tile's matrix product contracts the 256 feature coordinates of row r of the block with those of row j of the
  whole matrix, starting from a zero accumulator, so its entry is the plain sum of the 256 products. The product is
  scaled by the named reciprocal of the temperature. The maximum along a row is the fold of max from the bottom
  element over the 4096 columns, and the shifted entry is the scaled similarity minus its row's maximum.
-/
import proofs.«168036_j8761733284020_1_alg».proof.Proof.Gen.KernelIdeal.Skeleton
import proofs.«168036_j8761733284020_1_alg».proof.Proof.PayLayout
import proofs.«168036_j8761733284020_1_alg».proof.Proof.Spec
import Idealize.ShloMosaic.PureOps.Ideal.Laws

noncomputable section

namespace Cert.KernelValue

open Idealize.ShloMosaic Idealize.ShloMosaic.ValueIdx Cert.KernelIdeal

/-! ## The side conditions of the lane reductions, named -/

theorem fmt32 : FKind.Formats .f32 := .inl rfl
theorem maxNeutral : (0xFF800000#32 : BitVec 32) = FKind.maximumf.neutral .f32 fmt32 := rfl
theorem addNeutral : (0x00000000#32 : BitVec 32) = FKind.add.neutral .f32 fmt32 := rfl

/-- A sum along the lanes of a 256 x 4096 tile, at row r: the sum over the 4096 columns. -/
theorem rowSum_apply (src : FVec Ideal S256x4096 .f32) (h : S256x4096.Reduces [1] S256) (hφ : FKind.Formats .f32)
    (hacc : (0x00000000#32 : BitVec 32) = FKind.add.neutral .f32 hφ) (r : Fin 256) :
    multiReduction .add [1] S256 src 0x00000000#32 h hφ hacc (ix1 r) = ∑ j : Fin 4096, src (ix2 r j) := by
  refine (Ideal.multiReduction_add_single src _ h hφ hacc (ix1 r)).trans ?_
  show ∑ j : Fin 4096, src (h.lift (ix1 r) j) = _
  exact Finset.sum_congr rfl fun j _ => congrArg src (funext fun a => Fin.ext (by
    match a with
    | ⟨0, _⟩ => rfl
    | ⟨1, _⟩ => rfl))

/-- A maximum along the lanes of a 256 x 4096 tile, at row r: the fold of max from the bottom element over the columns. -/
theorem rowMax_apply (src : FVec Ideal S256x4096 .f32) (h : S256x4096.Reduces [1] S256) (hφ : FKind.Formats .f32)
    (hacc : (0xFF800000#32 : BitVec 32) = FKind.maximumf.neutral .f32 hφ) (r : Fin 256) :
    multiReduction .maximumf [1] S256 src 0xFF800000#32 h hφ hacc (ix1 r)
      = (Finset.univ : Finset (Fin 4096)).fold max (⊥ : EReal) (fun j => src (ix2 r j)) := by
  refine (Ideal.multiReduction_maximumf_single src _ h hφ hacc (ix1 r)).trans ?_
  have hb : (FloatOps.ofBits (F := Ideal) .f32 0xFF800000#32 : EReal) = ⊥ := by
    show Ideal.ofBits .f32 0xFF800000#32 = ⊥
    simp [Ideal.ofBits, Ideal.ieee]
  have hf : (fun j : Fin 4096 => src (h.lift (ix1 r) j)) = fun j : Fin 4096 => src (ix2 r j) :=
    funext fun j => congrArg src (funext fun a => Fin.ext (by
      match a with
      | ⟨0, _⟩ => rfl
      | ⟨1, _⟩ => rfl))
  show (Finset.univ : Finset (Fin 4096)).fold max (FloatOps.ofBits (F := Ideal) .f32 0xFF800000#32 : EReal)
      (fun j : Fin 4096 => src (h.lift (ix1 r) j)) = _
  rw [hb, hf]

/-! ## The matrix product at an entry -/

/-- The tile's dimension numbers: contract axis 1 of both operands. -/
abbrev tileDot : DotDims S256x256 S4096x256 S256x4096 := dot_S256x256_S4096x256_S256x4096_1_1_0_0_n_n

theorem lhs_tile_0 (i : S256x4096.Idx) (c : tileDot.contr.Idx) : (tileDot.lhsIdx i c 0).val = (i 0).val := by
  unfold DotDims.lhsIdx
  rw [dif_neg (show ¬(0 : Fin S256x256.rank) ∈ tileDot.lhsBatch by decide),
    dif_pos (show (0 : Fin S256x256.rank) ∈ tileDot.lhsNonContracting by decide)]
  rfl
theorem lhs_tile_1 (i : S256x4096.Idx) (c : tileDot.contr.Idx) : (tileDot.lhsIdx i c 1).val = (c ⟨0, by decide⟩).val :=
  tileDot.lhsIdx_val_of_single rfl i c
theorem rhs_tile_0 (i : S256x4096.Idx) (c : tileDot.contr.Idx) : (tileDot.rhsIdx i c 0).val = (i 1).val := by
  unfold DotDims.rhsIdx
  rw [dif_neg (show ¬(0 : Fin S4096x256.rank) ∈ tileDot.rhsBatch by decide),
    dif_pos (show (0 : Fin S4096x256.rank) ∈ tileDot.rhsNonContracting by decide)]
  rfl
theorem rhs_tile_1 (i : S256x4096.Idx) (c : tileDot.contr.Idx) : (tileDot.rhsIdx i c 1).val = (c ⟨0, by decide⟩).val :=
  tileDot.rhsIdx_val_of_single rfl i c

/-- Entry (r, j) of the product into a zero accumulator: the sum over the feature coordinate d of
    (row r of the block at d) * (row j of the whole matrix at d). -/
theorem tile_matmul_apply (q : FVec Ideal S256x256 .bf16) (k : FVec Ideal S4096x256 .bf16) (r : Fin 256) (j : Fin 4096) :
    matmul tileDot none q k (constant (F := Ideal) S256x4096 .f32 0x00000000#32) (ix2 r j)
      = ∑ d : Fin 256, q (ix2 r d) * k (ix2 j d) := by
  simp only [matmul]
  rw [Ideal.matmul_constant_zero_apply, ← Equiv.sum_comp (contrEquiv1 tileDot 256 rfl rfl).symm]
  refine Finset.sum_congr rfl fun d _ => ?_
  have hd := contrEquiv1_symm_val tileDot 256 rfl rfl d
  have el : tileDot.lhsIdx (ix2 r j) ((contrEquiv1 tileDot 256 rfl rfl).symm d) = ix2 r d := funext fun a => Fin.ext (by
    match a with
    | ⟨0, _⟩ => exact lhs_tile_0 _ _
    | ⟨1, _⟩ => exact (lhs_tile_1 _ _).trans hd)
  have er : tileDot.rhsIdx (ix2 r j) ((contrEquiv1 tileDot 256 rfl rfl).symm d) = ix2 j d := funext fun a => Fin.ext (by
    match a with
    | ⟨0, _⟩ => exact rhs_tile_0 _ _
    | ⟨1, _⟩ => exact (rhs_tile_1 _ _).trans hd)
  rw [el, er]

/-! ## The scale -/

/-- The named constant of the kernel is the exact reciprocal of the temperature. -/
theorem inv_temperature_eq :
    Named.named (F := Ideal) κ "inv_temperature" (φ := .f32) 0x41649249#32 = Cert.Spec.invTemp :=
  IdealRules.named_const.ideal_named_scalar _ _ _ _ rfl

/-! ## The scaled similarities and their shift -/

/-- The scaled similarities of the tile. -/
def logits (q : Vec Ideal S256x256 .bf16) (k : Vec Ideal S4096x256 .bf16) : FVec Ideal S256x4096 .f32 :=
  mulf (matmul tileDot none
      (shapeCast S256x256 q Gen.shapeCasts_S256x256_S256x256 : FVec Ideal S256x256 .bf16)
      (shapeCast S4096x256 k Gen.shapeCasts_S4096x256_S4096x256 : FVec Ideal S4096x256 .bf16)
      (constant (F := Ideal) S256x4096 .f32 0x00000000#32))
    (broadcast S256x4096 (Named.named (F := Ideal) κ "inv_temperature" (φ := .f32) 0x41649249#32))

theorem logits_apply (q : Vec Ideal S256x256 .bf16) (k : Vec Ideal S4096x256 .bf16) (r : Fin 256) (j : Fin 4096) :
    logits q k (ix2 r j) = (∑ d : Fin 256, q (ix2 r d) * k (ix2 j d)) * Cert.Spec.invTemp := by
  unfold logits
  rw [mulf_apply, broadcast_apply, shapeCast_self, shapeCast_self, tile_matmul_apply, inv_temperature_eq]

/-- The scaled similarities minus their row's maximum. -/
def shifted (q : Vec Ideal S256x256 .bf16) (k : Vec Ideal S4096x256 .bf16) : FVec Ideal S256x4096 .f32 :=
  subf (logits q k)
    (broadcastTo S256x4096
      (shapeCast S256x1
        (multiReduction .maximumf [1] S256 (logits q k) 0xFF800000#32 Gen.reduces_S256x4096_S256 fmt32 maxNeutral)
        Gen.shapeCasts_S256_S256x1)
      Gen.broadcasts_S256x1_S256x4096)

theorem shifted_apply (q : Vec Ideal S256x256 .bf16) (k : Vec Ideal S4096x256 .bf16) (r : Fin 256) (j : Fin 4096) :
    shifted q k (ix2 r j)
      = (∑ d : Fin 256, q (ix2 r d) * k (ix2 j d)) * Cert.Spec.invTemp
        - (Finset.univ : Finset (Fin 4096)).fold max (⊥ : EReal)
            (fun j' => (∑ d : Fin 256, q (ix2 r d) * k (ix2 j' d)) * Cert.Spec.invTemp) := by
  unfold shifted
  rw [subf_apply, broadcastTo_a1_ab_apply, shapeCast_a_a1_apply, rowMax_apply, logits_apply]
  simp only [logits_apply]

end Cert.KernelValue

end
-- ==== Proof.PayRow.lean ====
/-
  One row of the kernel's stored block is the row value of the specification.

  With z the shifted scaled similarities of the row, the body forms N, the sum of exp z over the columns of another
  class; the log-ratio z - log (exp z + N) at every column; its sum over the columns of the same class other than the
  row itself; the number of such columns; and stores minus one times the quotient of the two. Each step is read at
  the row's entry, and the result is the specification's row value of the row's data, term for term.
-/
import proofs.«168036_j8761733284020_1_alg».proof.Proof.Gen.KernelIdeal.Skeleton
import proofs.«168036_j8761733284020_1_alg».proof.Proof.PayMask
import proofs.«168036_j8761733284020_1_alg».proof.Proof.PayLogits

noncomputable section

namespace Cert.KernelValue

open Idealize.ShloMosaic Idealize.ShloMosaic.ValueIdx Cert.KernelIdeal

/-! ## The other-class sum and the log-ratio -/

/-- For each row, the sum of the exponentials of the shifted similarities over the columns of another class. -/
def otherSum (q : Vec Ideal S256x256 .bf16) (k : Vec Ideal S4096x256 .bf16) (lq : Vec Ideal S256x1 .i32)
    (lk : Vec Ideal S1x4096 .i32) : FVec Ideal S256 .f32 :=
  multiReduction .add [1] S256
    (mulf (exp (shifted q k))
      (sitofp .f32 (extui 32 (xori (Gen.k0_pay2 (F := Ideal) lq lk) (constantI S256x4096 1 1#1)) Gen.natLt_1_32)))
    0x00000000#32 Gen.reduces_S256x4096_S256 fmt32 addNeutral

theorem otherSum_apply (q : Vec Ideal S256x256 .bf16) (k : Vec Ideal S4096x256 .bf16) (lq : Vec Ideal S256x1 .i32)
    (lk : Vec Ideal S1x4096 .i32) (r : Fin 256) :
    otherSum q k lq lk (ix1 r)
      = ∑ j : Fin 4096, Ideal.exp (shifted q k (ix2 r j))
          * (if lq (ix2 r (0 : Fin 1)) = lk (ix2 (0 : Fin 1) j) then (0 : EReal) else 1) := by
  unfold otherSum
  rw [rowSum_apply]
  refine Finset.sum_congr rfl fun j _ => ?_
  rw [mulf_apply, other_apply]
  rfl

/-- The log-ratio of the tile: z - log (exp z + N), N the row's other-class sum. -/
def logProb (q : Vec Ideal S256x256 .bf16) (k : Vec Ideal S4096x256 .bf16) (lq : Vec Ideal S256x1 .i32)
    (lk : Vec Ideal S1x4096 .i32) : FVec Ideal S256x4096 .f32 :=
  subf (shifted q k)
    (log (addf (exp (shifted q k))
      (broadcastTo S256x4096 (shapeCast S256x1 (otherSum q k lq lk) Gen.shapeCasts_S256_S256x1)
        Gen.broadcasts_S256x1_S256x4096)))

theorem logProb_apply (q : Vec Ideal S256x256 .bf16) (k : Vec Ideal S4096x256 .bf16) (lq : Vec Ideal S256x1 .i32)
    (lk : Vec Ideal S1x4096 .i32) (r : Fin 256) (j : Fin 4096) :
    logProb q k lq lk (ix2 r j)
      = shifted q k (ix2 r j) - Ideal.log (Ideal.exp (shifted q k (ix2 r j)) + otherSum q k lq lk (ix1 r)) := by
  unfold logProb
  rw [subf_apply]
  show _ - Ideal.log (Ideal.exp (shifted q k (ix2 r j))
      + broadcastTo S256x4096 (shapeCast S256x1 (otherSum q k lq lk) _) _ (ix2 r j)) = _
  rw [broadcastTo_a1_ab_apply, shapeCast_a_a1_apply]

/-! ## The two payloads as these terms -/

/-- The masked sum of the log-ratio, as the body computes it, is the lane sum of mask * log-ratio. -/
theorem pay4_eq (i : grid0.Coords) (q : Vec Ideal S256x256 .bf16) (k : Vec Ideal S4096x256 .bf16)
    (lq : Vec Ideal S256x1 .i32) (lk : Vec Ideal S1x4096 .i32) :
    Gen.k0_pay4 (F := Ideal) i q k lq lk
      = multiReduction .add [1] S256 (mulf (Gen.k0_pay3 (F := Ideal) i lq lk) (logProb q k lq lk)) 0x00000000#32
          Gen.reduces_S256x4096_S256 fmt32 addNeutral := rfl

/-- The stored column: minus one times (masked sum / mask count), row by row. -/
def rowOut (m : FVec Ideal S256x4096 .f32) (t : FVec Ideal S256 .f32) : FVec Ideal S256x1 .f32 :=
  mulf (broadcast S256x1 (Scalar.ofBits (F := Ideal) .f32 0xBF800000#32))
    (divf (shapeCast S256x1 t Gen.shapeCasts_S256_S256x1)
      (shapeCast S256x1
        (multiReduction .add [1] S256 m 0x00000000#32 Gen.reduces_S256x4096_S256 fmt32 addNeutral)
        Gen.shapeCasts_S256_S256x1))

theorem pay1_eq (m : FVec Ideal S256x4096 .f32) (t : FVec Ideal S256 .f32) :
    Gen.k0_pay1 (F := Ideal) m t = rowOut m t := rfl

theorem rowOut_apply (m : FVec Ideal S256x4096 .f32) (t : FVec Ideal S256 .f32) (r : Fin 256) :
    rowOut m t (ix2 r (0 : Fin 1))
      = Ideal.ofBits .f32 0xBF800000#32 * Ideal.div (t (ix1 r)) (∑ j : Fin 4096, m (ix2 r j)) := by
  unfold rowOut
  rw [mulf_apply, broadcast_apply, divf_apply, shapeCast_a_a1_apply, shapeCast_a_a1_apply, rowSum_apply]
  rfl

/-! ## The row -/

/-- Row r of the block at grid point i sits at position (i 0) * 256 + r of the matrix, below 4096: the grid has 16 points. -/
theorem self_lt (i : grid0.Coords) (r : Fin 256) : (i 0).val * 256 + r.val < 4096 := by
  have hg : (i 0).val < 16 := (i 0).isLt
  have hr := r.isLt
  omega

/-- Row r of the block stored at grid point i is the specification's row value: of row r of the block of features,
    all rows of the matrix, the row's label, all labels, and the row's position (i 0) * 256 + r in the matrix. -/
theorem payload_row (i : grid0.Coords) (q : Vec Ideal S256x256 .bf16) (k : Vec Ideal S4096x256 .bf16)
    (lq : Vec Ideal S256x1 .i32) (lk : Vec Ideal S1x4096 .i32) (r : Fin 256)
    (hself : (i 0).val * 256 + r.val < 4096) :
    Gen.k0_pay1 (F := Ideal) (Gen.k0_pay3 i lq lk) (Gen.k0_pay4 i q k lq lk) (ix2 r (0 : Fin 1))
      = Cert.Spec.rowLoss (fun d => q (ix2 r d)) (fun j d => k (ix2 j d)) (lq (ix2 r (0 : Fin 1)))
          (fun j => lk (ix2 (0 : Fin 1) j)) ⟨(i 0).val * 256 + r.val, hself⟩ := by
  rw [pay1_eq, rowOut_apply, pay4_eq, rowSum_apply]
  unfold Cert.Spec.rowLoss
  simp only [mulf_apply, pay3_apply i lq lk r _ hself, logProb_apply, otherSum_apply, shifted_apply]

end Cert.KernelValue

end
-- ==== Proof.Layout.lean ====
/-
  The rearrangement of the two argument arrays that both programs perform before any arithmetic, read entry by entry.

  Features: the 256 x 16 x 256 array has its first two axes exchanged and is then flattened to 4096 x 256, so that
  row n = v * 256 + a holds anchor a = n % 256 in view v = n / 256. Changing the float format of that matrix does
  nothing on the extended reals.

  Labels: the 256 labels are laid out as one row, the row is repeated 16 times, and the 16 x 256 table is flattened
  to length 4096, so that entry n holds label n % 256. Seen as a 1 x 4096 row or as a 4096 x 1 column, the entry with
  free coordinate n is still that label.
-/
import Idealize.ShloMosaic.PureOps.Ideal
import Idealize.ShloMosaic.Lib.ValueIdx
import Idealize.ShloMosaic.Lib.Pipeline.Value
import proofs.«168036_j8761733284020_1_alg».proof.Proof.Spec

noncomputable section

namespace Cert.Layout

open Idealize.ShloMosaic

/-- Entry (n, d) of the flattened exchange of the first two axes is anchor n % 256, view n / 256, feature d. -/
theorem contrast_read (x : FVec Ideal ⟨3, ![256, 16, 256]⟩ .f32)
    (ht : Shape.Transposes ⟨3, ![256, 16, 256]⟩ [1, 0, 2] ⟨3, ![16, 256, 256]⟩)
    (hc : Shape.ShapeCasts ⟨3, ![16, 256, 256]⟩ ⟨2, ![4096, 256]⟩) (n : Fin 4096) (d : Fin 256) :
    shapeCast ⟨2, ![4096, 256]⟩ (transpose ⟨3, ![16, 256, 256]⟩ [1, 0, 2] x ht) hc (ValueIdx.ix2 n d)
      = Cert.Spec.contrast x n d := by
  have hn : n.val < 4096 := n.isLt
  have hd : d.val < 256 := d.isLt
  rw [shapeCast_apply (transpose ⟨3, ![16, 256, 256]⟩ [1, 0, 2] x ht) hc (ValueIdx.ix2 n d)
    (ValueIdx.ix3 (⟨n.val / 256, by omega⟩ : Fin 16) (⟨n.val % 256, Nat.mod_lt _ (by decide)⟩ : Fin 256) d)
    (by rewrite [Shape.rowMajor_val_three, Shape.rowMajor_val_two]
        show (n.val / 256 * 256 + n.val % 256) * 256 + d.val = n.val * 256 + d.val
        omega)]
  unfold Cert.Spec.contrast
  exact transpose_apply [1, 0, 2] x ht _
    (ValueIdx.ix3 (⟨n.val % 256, Nat.mod_lt _ (by decide)⟩ : Fin 256) (⟨n.val / 256, by omega⟩ : Fin 16) d)
    (fun b => match b with
      | ⟨0, _⟩ => rfl
      | ⟨1, _⟩ => rfl
      | ⟨2, _⟩ => rfl)

/-- The same entry after the matrix is narrowed to the half-width float format: on the extended reals a change of
    format is the identity. -/
theorem contrast_read_truncf (x : FVec Ideal ⟨3, ![256, 16, 256]⟩ .f32)
    (ht : Shape.Transposes ⟨3, ![256, 16, 256]⟩ [1, 0, 2] ⟨3, ![16, 256, 256]⟩)
    (hc : Shape.ShapeCasts ⟨3, ![16, 256, 256]⟩ ⟨2, ![4096, 256]⟩) (h : FTy.bf16.bits < FTy.f32.bits)
    (n : Fin 4096) (d : Fin 256) :
    truncf .bf16 (shapeCast ⟨2, ![4096, 256]⟩ (transpose ⟨3, ![16, 256, 256]⟩ [1, 0, 2] x ht) hc) h (ValueIdx.ix2 n d)
      = Cert.Spec.contrast x n d :=
  contrast_read x ht hc n d

/-- Entry n of the labels repeated 16 times and flattened is label n % 256. -/
theorem lbl_read (lab : IVec ⟨1, ![256]⟩ 32)
    (h1 : Shape.ShapeCasts ⟨1, ![256]⟩ ⟨2, ![1, 256]⟩)
    (hb : Shape.BroadcastsInDim ⟨2, ![1, 256]⟩ ⟨2, ![16, 256]⟩ (![0, 1] : Fin 2 → Fin 2))
    (h2 : Shape.ShapeCasts ⟨2, ![16, 256]⟩ ⟨1, ![4096]⟩) (n : Fin 4096) :
    shapeCast ⟨1, ![4096]⟩ (broadcastInDim ⟨2, ![16, 256]⟩ ![0, 1] hb (shapeCast ⟨2, ![1, 256]⟩ lab h1)) h2
        (ValueIdx.ix1 n)
      = Cert.Spec.lbl lab n := by
  have hn : n.val < 4096 := n.isLt
  rw [shapeCast_apply (broadcastInDim ⟨2, ![16, 256]⟩ ![0, 1] hb (shapeCast ⟨2, ![1, 256]⟩ lab h1)) h2 (ValueIdx.ix1 n)
    (ValueIdx.ix2 (⟨n.val / 256, by omega⟩ : Fin 16) (⟨n.val % 256, Nat.mod_lt _ (by decide)⟩ : Fin 256))
    (by rewrite [Shape.rowMajor_val_two, Shape.rowMajor_val_one]
        show n.val / 256 * 256 + n.val % 256 = n.val
        omega)]
  rw [broadcastInDim_apply _ hb (shapeCast ⟨2, ![1, 256]⟩ lab h1) _
    (ValueIdx.ix2 (⟨0, Nat.one_pos⟩ : Fin 1) (⟨n.val % 256, Nat.mod_lt _ (by decide)⟩ : Fin 256))
    (fun a => match a with
      | ⟨0, _⟩ => by show 0 = if (1 : Nat) = 1 then 0 else n.val / 256; rw [if_pos rfl]
      | ⟨1, _⟩ => by show n.val % 256 = if (256 : Nat) = 1 then 0 else n.val % 256; rw [if_neg (by decide)])]
  unfold Cert.Spec.lbl
  exact shapeCast_apply lab h1 _ (ValueIdx.ix1 (⟨n.val % 256, Nat.mod_lt _ (by decide)⟩ : Fin 256))
    (by rewrite [Shape.rowMajor_val_one, Shape.rowMajor_val_two]
        show n.val % 256 = 0 * 256 + n.val % 256
        omega)

/-- A length-4096 array seen as a 1 x 4096 row: the entry in column n is entry n. -/
theorem row_read {α : Type} (v : (⟨1, ![4096]⟩ : Shape).Idx → α)
    (h : Shape.ShapeCasts ⟨1, ![4096]⟩ ⟨2, ![1, 4096]⟩) (n : Fin 4096) :
    shapeCast ⟨2, ![1, 4096]⟩ v h (ValueIdx.ix2 (0 : Fin 1) n) = v (ValueIdx.ix1 n) :=
  shapeCast_apply v h _ (ValueIdx.ix1 n)
    (by rewrite [Shape.rowMajor_val_one, Shape.rowMajor_val_two]
        show n.val = 0 * 4096 + n.val
        omega)

/-- A length-4096 array seen as a 4096 x 1 column: the entry in row n is entry n. -/
theorem col_read {α : Type} (v : (⟨1, ![4096]⟩ : Shape).Idx → α)
    (h : Shape.ShapeCasts ⟨1, ![4096]⟩ ⟨2, ![4096, 1]⟩) (n : Fin 4096) :
    shapeCast ⟨2, ![4096, 1]⟩ v h (ValueIdx.ix2 n (0 : Fin 1)) = v (ValueIdx.ix1 n) :=
  shapeCast_apply v h _ (ValueIdx.ix1 n)
    (by rewrite [Shape.rowMajor_val_one, Shape.rowMajor_val_two]
        show n.val = n.val * 1 + 0
        omega)

/-- The repeated labels as a 1 x 4096 row, read in column n. -/
theorem lbl_row_read (lab : IVec ⟨1, ![256]⟩ 32)
    (h1 : Shape.ShapeCasts ⟨1, ![256]⟩ ⟨2, ![1, 256]⟩)
    (hb : Shape.BroadcastsInDim ⟨2, ![1, 256]⟩ ⟨2, ![16, 256]⟩ (![0, 1] : Fin 2 → Fin 2))
    (h2 : Shape.ShapeCasts ⟨2, ![16, 256]⟩ ⟨1, ![4096]⟩)
    (h3 : Shape.ShapeCasts ⟨1, ![4096]⟩ ⟨2, ![1, 4096]⟩) (n : Fin 4096) :
    shapeCast ⟨2, ![1, 4096]⟩
        (shapeCast ⟨1, ![4096]⟩ (broadcastInDim ⟨2, ![16, 256]⟩ ![0, 1] hb (shapeCast ⟨2, ![1, 256]⟩ lab h1)) h2) h3
        (ValueIdx.ix2 (0 : Fin 1) n)
      = Cert.Spec.lbl lab n :=
  (row_read _ h3 n).trans (lbl_read lab h1 hb h2 n)

/-- The repeated labels as a 4096 x 1 column, read in row n. -/
theorem lbl_col_read (lab : IVec ⟨1, ![256]⟩ 32)
    (h1 : Shape.ShapeCasts ⟨1, ![256]⟩ ⟨2, ![1, 256]⟩)
    (hb : Shape.BroadcastsInDim ⟨2, ![1, 256]⟩ ⟨2, ![16, 256]⟩ (![0, 1] : Fin 2 → Fin 2))
    (h2 : Shape.ShapeCasts ⟨2, ![16, 256]⟩ ⟨1, ![4096]⟩)
    (h4 : Shape.ShapeCasts ⟨1, ![4096]⟩ ⟨2, ![4096, 1]⟩) (n : Fin 4096) :
    shapeCast ⟨2, ![4096, 1]⟩
        (shapeCast ⟨1, ![4096]⟩ (broadcastInDim ⟨2, ![16, 256]⟩ ![0, 1] hb (shapeCast ⟨2, ![1, 256]⟩ lab h1)) h2) h4
        (ValueIdx.ix2 n (0 : Fin 1))
      = Cert.Spec.lbl lab n :=
  (col_read _ h4 n).trans (lbl_read lab h1 hb h2 n)

end Cert.Layout

end
-- ==== Proof.RowArray.lean ====
/-
  The mean of the row values, as the kernel's program takes it on the host: the 4096 row values sit in a 4096 x 1
  array; the host adds all of its entries to the zero word and divides by 4096. A sum over a 4096 x 1 index set is
  the sum over its first coordinate, so the result is the specification's loss.
-/
import Idealize.ShloMosaic.PureOps.Ideal
import Idealize.ShloMosaic.PureOps.Ideal.Laws
import Idealize.ShloMosaic.Lib.ValueIdx
import proofs.«168036_j8761733284020_1_alg».proof.Proof.Spec

noncomputable section

namespace Cert.RowArray

open Idealize.ShloMosaic

/-- The 4096 x 1 array of row values: entry (n, 0) is the specification's value of row n. -/
def Gout (x : FVec Ideal ⟨3, ![256, 16, 256]⟩ .f32) (lab : IVec ⟨1, ![256]⟩ 32) :
    (⟨2, ![4096, 1]⟩ : Shape).Idx → EReal :=
  fun y => Cert.Spec.rowLoss (Cert.Spec.contrast x (y 0)) (Cert.Spec.contrast x) (Cert.Spec.lbl lab (y 0))
    (Cert.Spec.lbl lab) (y 0)

/-- The sum of all entries of that array is the sum of the row values. -/
theorem sum_Gout (x : FVec Ideal ⟨3, ![256, 16, 256]⟩ .f32) (lab : IVec ⟨1, ![256]⟩ 32) :
    ∑ y : (⟨2, ![4096, 1]⟩ : Shape).Idx, Gout x lab y
      = ∑ n : Fin 4096, Cert.Spec.rowLoss (Cert.Spec.contrast x n) (Cert.Spec.contrast x) (Cert.Spec.lbl lab n)
          (Cert.Spec.lbl lab) n := by
  rw [ValueIdx.sum_idx2]
  simp only [Fin.sum_univ_one]
  rfl

/-- The host's sum over both axes from the zero word, divided by the word of 4096, is the loss. -/
theorem mean_eq (x : FVec Ideal ⟨3, ![256, 16, 256]⟩ .f32) (lab : IVec ⟨1, ![256]⟩ 32)
    (h1 : Shape.ReducesTo ⟨2, ![4096, 1]⟩ [0, 1] ⟨0, ![]⟩) (h2 : 0 < (⟨0, ![]⟩ : Shape).numel) :
    Host.divf (F := Ideal)
        (Host.reduceAdd (F := Ideal) (Gout x lab) (constant (F := Ideal) ⟨0, ![]⟩ .f32 0x00000000#32) h1 h2)
        (constant (F := Ideal) ⟨0, ![]⟩ .f32 0x45800000#32)
      = fun _ => Cert.Spec.loss x lab := by
  funext i
  simp only [Host.divf, Host.reduceAdd, constant, Ideal.hostReduceAdd_def, Ideal.hostDivf_def, Ideal.ofBits_def]
  rw [Ideal.hostReduceAdd_total h1 (fun b => b.elim0), sum_Gout]
  rfl

end Cert.RowArray

end
-- ==== Proof.KernelIdealValue.lean ====
/-
  From the blocks to the array: after the region, the 4096 x 1 result array holds, in row n, the specification's row
  value of row n of the view-major feature matrix and of the repeated labels.

  Grid point t reads rows 256 t .. 256 t + 255 of the matrix and of the label column, the whole matrix and the whole
  label row, and writes rows 256 t .. 256 t + 255 of the result. The matrix is the exchange-and-flatten of the features
  (narrowed in format, which changes nothing on the extended reals), the label column and row are the repeated labels.
  So row r of the block written at t is the row value at position 256 t + r, and the 16 blocks tile the 4096 rows:
  row n lies in the block of point n / 256.
-/
import proofs.«168036_j8761733284020_1_alg».proof.Proof.KernelIdealDat
import proofs.«168036_j8761733284020_1_alg».proof.Proof.PayRow
import proofs.«168036_j8761733284020_1_alg».proof.Proof.Layout
import proofs.«168036_j8761733284020_1_alg».proof.Proof.RowArray
import Idealize.ShloMosaic.Lib.Pipeline.Value

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ)
/-! ## The three arrays the region reads, as the host lines leave them -/

/-- The matrix: the features with their first two axes exchanged, flattened, narrowed in format. -/
theorem matrix_eq (c : Dev nD) : (V m c main_v5 : S4096x256.Idx → EReal)
    = truncf (F := Ideal) .bf16 (shapeCast S4096x256 (transpose S16x256x256 [1, 0, 2] (m ((c : Thread nD τ).loc main_arg0))
        transposes_S256x16x256_S16x256x256_1_0_2) shapeCasts_S16x256x256_S4096x256) bitsLt_bf16_f32 := by
  show StableHlo.after hostOps0 (fun b => m (c, b)) (Proc.devRef .tc main_v5) = _
  after_results
  rfl

/-- The label column: the labels as a row, repeated 16 times, flattened, seen as a column. -/
theorem labelCol_eq (c : Dev nD) : (V m c main_v7 : S4096x1.Idx → BitVec 32)
    = shapeCast S4096x1 (shapeCast S4096 (broadcastInDim S16x256 ![0, 1] bcast_S1x256_S16x256_0_1
        (shapeCast S1x256 (m ((c : Thread nD τ).loc main_arg1)) shapeCasts_S256_S1x256)) shapeCasts_S16x256_S4096)
        shapeCasts_S4096_S4096x1 := by
  show StableHlo.after hostOps0 (fun b => m (c, b)) (Proc.devRef .tc main_v7) = _
  after_results
  rfl

/-- The label row: the same, seen as a row. -/
theorem labelRow_eq (c : Dev nD) : (V m c main_v6 : S1x4096.Idx → BitVec 32)
    = shapeCast S1x4096 (shapeCast S4096 (broadcastInDim S16x256 ![0, 1] bcast_S1x256_S16x256_0_1
        (shapeCast S1x256 (m ((c : Thread nD τ).loc main_arg1)) shapeCasts_S256_S1x256)) shapeCasts_S16x256_S4096)
        shapeCasts_S4096_S1x4096 := by
  show StableHlo.after hostOps0 (fun b => m (c, b)) (Proc.devRef .tc main_v6) = _
  after_results
  rfl

/-- Entry (n, d) of the matrix is anchor n % 256, view n / 256, feature d of the features. -/
theorem read_v5 (c : Dev nD) (n : Fin 4096) (d : Fin 256) :
    (V m c main_v5 : S4096x256.Idx → EReal) (ix2 n d) = Cert.Spec.contrast (m ((c : Thread nD τ).loc main_arg0)) n d := by
  rw [matrix_eq]
  exact Cert.Layout.contrast_read_truncf _ _ _ _ n d

/-- Row n of the label column is label n % 256. -/
theorem read_v7 (c : Dev nD) (n : Fin 4096) :
    (V m c main_v7 : S4096x1.Idx → BitVec 32) (ix2 n (0 : Fin 1)) = Cert.Spec.lbl (m ((c : Thread nD τ).loc main_arg1)) n := by
  rw [labelCol_eq]
  exact Cert.Layout.lbl_col_read _ _ _ _ _ n

/-- Column n of the label row is label n % 256. -/
theorem read_v6 (c : Dev nD) (n : Fin 4096) :
    (V m c main_v6 : S1x4096.Idx → BitVec 32) (ix2 (0 : Fin 1) n) = Cert.Spec.lbl (m ((c : Thread nD τ).loc main_arg1)) n := by
  rw [labelRow_eq]
  exact Cert.Layout.lbl_row_read _ _ _ _ _ n

/-! ## Where each window's block sits -/

/-- The block indices at every grid point, decided over the 16 points: windows 0, 2 and 4 move with the point along the
    rows, windows 1 and 3 stay at the origin. -/
theorem index_facts : ∀ t : Fin cfg0.N,
    win0_0.index t (0 : Fin 2) = (grid0.coords t 0).val ∧ win0_0.index t (1 : Fin 2) = 0
    ∧ win0_1.index t (0 : Fin 2) = 0 ∧ win0_1.index t (1 : Fin 2) = 0
    ∧ win0_2.index t (0 : Fin 2) = (grid0.coords t 0).val ∧ win0_2.index t (1 : Fin 2) = 0
    ∧ win0_3.index t (0 : Fin 2) = 0 ∧ win0_3.index t (1 : Fin 2) = 0
    ∧ win0_4.index t (0 : Fin 2) = (grid0.coords t 0).val ∧ win0_4.index t (1 : Fin 2) = 0 :=
  (by decide +kernel : ∀ t : Fin grid0.N, _)

/-- Every one of the 16 row blocks of the result is some point's. -/
theorem index_onto : ∀ q0 : Fin 16, ∃ t : Fin cfg0.N, win0_4.index t = ![q0.val, 0] :=
  (by decide +kernel : ∀ q0 : Fin 16, ∃ t : Fin grid0.N, win0_4.index t = ![q0.val, 0])

/-! ## The four input blocks at a point, entry by entry -/

/-- Window 0's block at point t: row r is row 256 t + r of the matrix. -/
theorem iblk0_apply (c : Dev nD) (t : Fin cfg0.N) (r d : Fin 256) :
    (iblk m c 0 t : Vec Ideal S256x256 .bf16) (ix2 r d)
      = Cert.Spec.contrast (m ((c : Thread nD τ).loc main_arg0))
          ⟨((grid0.coords t) 0).val * 256 + r.val, Cert.KernelValue.self_lt (grid0.coords t) r⟩ d := by
  obtain ⟨e0, e1, -⟩ := index_facts t
  unfold iblk
  rw [View.read_apply]
  show (V m c main_v5 : S4096x256.Idx → EReal) (((cfg0.win 0).blk t).view.emb (ix2 r d)) = _
  refine Eq.trans (congrArg _ ?_) (read_v5 m c _ d)
  funext a; apply Fin.ext
  match a with
  | ⟨0, _⟩ => show win0_0.index t (0 : Fin 2) * 256 + 1 * r.val = (grid0.coords t 0).val * 256 + r.val; rw [e0]; omega
  | ⟨1, _⟩ => show win0_0.index t (1 : Fin 2) * 256 + 1 * d.val = d.val; rw [e1]; omega

/-- Window 1's block at any point is the whole matrix. -/
theorem iblk1_apply (c : Dev nD) (t : Fin cfg0.N) (n : Fin 4096) (d : Fin 256) :
    (iblk m c 1 t : Vec Ideal S4096x256 .bf16) (ix2 n d) = Cert.Spec.contrast (m ((c : Thread nD τ).loc main_arg0)) n d := by
  obtain ⟨-, -, e0, e1, -⟩ := index_facts t
  unfold iblk
  rw [View.read_apply]
  show (V m c main_v5 : S4096x256.Idx → EReal) (((cfg0.win 1).blk t).view.emb (ix2 n d)) = _
  refine Eq.trans (congrArg _ ?_) (read_v5 m c n d)
  funext a; apply Fin.ext
  match a with
  | ⟨0, _⟩ => show win0_1.index t (0 : Fin 2) * 4096 + 1 * n.val = n.val; rw [e0]; omega
  | ⟨1, _⟩ => show win0_1.index t (1 : Fin 2) * 256 + 1 * d.val = d.val; rw [e1]; omega

/-- Window 2's block at point t: row r is row 256 t + r of the label column. -/
theorem iblk2_apply (c : Dev nD) (t : Fin cfg0.N) (r : Fin 256) :
    (iblk m c 2 t : Vec Ideal S256x1 .i32) (ix2 r (0 : Fin 1))
      = Cert.Spec.lbl (m ((c : Thread nD τ).loc main_arg1))
          ⟨((grid0.coords t) 0).val * 256 + r.val, Cert.KernelValue.self_lt (grid0.coords t) r⟩ := by
  obtain ⟨-, -, -, -, e0, e1, -⟩ := index_facts t
  unfold iblk
  rw [View.read_apply]
  show (V m c main_v7 : S4096x1.Idx → BitVec 32) (((cfg0.win 2).blk t).view.emb (ix2 r (0 : Fin 1))) = _
  refine Eq.trans (congrArg _ ?_) (read_v7 m c _)
  funext a; apply Fin.ext
  match a with
  | ⟨0, _⟩ => show win0_2.index t (0 : Fin 2) * 256 + 1 * r.val = (grid0.coords t 0).val * 256 + r.val; rw [e0]; omega
  | ⟨1, _⟩ => show win0_2.index t (1 : Fin 2) * 1 + 1 * 0 = 0; rw [e1]

/-- Window 3's block at any point is the whole label row. -/
theorem iblk3_apply (c : Dev nD) (t : Fin cfg0.N) (n : Fin 4096) :
    (iblk m c 3 t : Vec Ideal S1x4096 .i32) (ix2 (0 : Fin 1) n) = Cert.Spec.lbl (m ((c : Thread nD τ).loc main_arg1)) n := by
  obtain ⟨-, -, -, -, -, -, e0, e1, -⟩ := index_facts t
  unfold iblk
  rw [View.read_apply]
  show (V m c main_v6 : S1x4096.Idx → BitVec 32) (((cfg0.win 3).blk t).view.emb (ix2 (0 : Fin 1) n)) = _
  refine Eq.trans (congrArg _ ?_) (read_v6 m c n)
  funext a; apply Fin.ext
  match a with
  | ⟨0, _⟩ => show win0_3.index t (0 : Fin 2) * 1 + 1 * 0 = 0; rw [e0]
  | ⟨1, _⟩ => show win0_3.index t (1 : Fin 2) * 4096 + 1 * n.val = n.val; rw [e1]; omega

/-! ## One row of the stored block -/

/-- The stored block's row y, for input blocks that are the rows 256 (i 0) .. of the matrix and of the labels, the whole
    matrix and all labels: the row value at position n = 256 (i 0) + y. -/
theorem row_value (i : grid0.Coords) (x : FVec Ideal ⟨3, ![256, 16, 256]⟩ .f32) (lab : IVec ⟨1, ![256]⟩ 32)
    (x0 : Vec Ideal S256x256 .bf16) (x1 : Vec Ideal S4096x256 .bf16) (x2 : Vec Ideal S256x1 .i32) (x3 : Vec Ideal S1x4096 .i32)
    (h0 : ∀ r d : Fin 256, x0 (ix2 r d) = Cert.Spec.contrast x ⟨(i 0).val * 256 + r.val, Cert.KernelValue.self_lt i r⟩ d)
    (h1 : ∀ (n : Fin 4096) (d : Fin 256), x1 (ix2 n d) = Cert.Spec.contrast x n d)
    (h2 : ∀ r : Fin 256, x2 (ix2 r (0 : Fin 1)) = Cert.Spec.lbl lab ⟨(i 0).val * 256 + r.val, Cert.KernelValue.self_lt i r⟩)
    (h3 : ∀ n : Fin 4096, x3 (ix2 (0 : Fin 1) n) = Cert.Spec.lbl lab n)
    (y : S256x1.Idx) (n : Fin 4096) (hn : n.val = (i 0).val * 256 + (y 0).val) :
    k0_pay1 (F := Ideal) (k0_pay3 i x2 x3) (k0_pay4 i x0 x1 x2 x3) y
      = Cert.Spec.rowLoss (Cert.Spec.contrast x n) (Cert.Spec.contrast x) (Cert.Spec.lbl lab n) (Cert.Spec.lbl lab) n := by
  obtain ⟨r, u, rfl⟩ : ∃ (r : Fin 256) (u : Fin 1), y = ix2 r u := ⟨y 0, y 1, eq_ix2 y⟩
  obtain rfl : u = (0 : Fin 1) := Subsingleton.elim _ _
  obtain rfl : n = ⟨(i 0).val * 256 + r.val, Cert.KernelValue.self_lt i r⟩ := Fin.ext hn
  rw [Cert.KernelValue.payload_row i x0 x1 x2 x3 r (Cert.KernelValue.self_lt i r)]
  simp only [h0, h1, h2, h3]

/-! ## What a point writes back, and the whole array -/

theorem zero_offsets : (![0, 0] : Fin 2 → Nat) = fun _ => 0 := funext fun a => by fin_cases a <;> rfl

/-- What point t writes back is block t of the array of row values. -/
theorem flushed_eq (c : Dev nD) (t : Fin cfg0.N) :
    (dats m 0 c).flushed 4 t
      = ((cfg0.win 4).blk t).view.read (Elt Ideal) (Cert.RowArray.Gout (m ((c : Thread nD τ).loc main_arg0)) (m ((c : Thread nD τ).loc main_arg1))) := by
  show (cfg0.win 4).cut (grid0.coords t) ((dats m 0 c).after 4 t) = _
  rw [after4]
  unfold outBlock
  rw [View.canon_unit_zero zero_offsets]
  simp only [View.ld_unit_zero (S := S256x256) zero_offsets, View.ld_unit_zero (S := S4096x256) zero_offsets,
    View.ld_unit_zero (S := S256x1) zero_offsets, View.ld_unit_zero (S := S1x4096) zero_offsets]
  obtain ⟨-, -, -, -, -, -, -, -, e0, e1⟩ := index_facts t
  funext y
  show k0_pay1 (F := Ideal) (k0_pay3 (grid0.coords t) (iblk m c 2 t) (iblk m c 3 t))
      (k0_pay4 (grid0.coords t) (iblk m c 0 t) (iblk m c 1 t) (iblk m c 2 t) (iblk m c 3 t)) y
    = Cert.RowArray.Gout (m ((c : Thread nD τ).loc main_arg0)) (m ((c : Thread nD τ).loc main_arg1)) (((cfg0.win 4).blk t).view.emb y)
  exact row_value (grid0.coords t) _ _ _ _ _ _ (iblk0_apply m c t) (iblk1_apply m c t) (iblk2_apply m c t) (iblk3_apply m c t) y _
    (show win0_4.index t (0 : Fin 2) * 256 + 1 * (y 0).val = (grid0.coords t 0).val * 256 + (y 0).val by rw [e0]; omega)

/-- An index of the result array is in point t's block iff each coordinate is in the block's range on its axis. -/
theorem mem_blk (t : Fin cfg0.N) (i : S4096x1.Idx) :
    i ∈ ((cfg0.win 4).blk t).view.set
      ↔ ∀ a : Fin 2, win0_4.index t a * S256x1.size a ≤ (i a).val ∧ (i a).val < win0_4.index t a * S256x1.size a + S256x1.size a := by
  show i ∈ ((View.whole main_v8).slice (win0_4.rect t)).set ↔ _
  rw [View.set_slice_whole, Rect.mem_set_unit]
  exact Iff.rfl

/-- Every row of the result array is in the block of the point that holds its 256 rows: row n in point n / 256's. -/
theorem cover (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  obtain ⟨t, ht⟩ := index_onto ⟨(i 0).val / 256, by omega⟩
  have q0 : win0_4.index t (0 : Fin 2) = (i 0).val / 256 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 1 ≤ (i 1).val ∧ (i 1).val < win0_4.index t (1 : Fin 2) * 1 + 1; omega

/-- After the region the result array holds the row values of the two argument arrays. -/
theorem arrAt4_eq (c : Dev nD) :
    (dats m 0 c).arrAt 4 cfg0.N
      = Cert.RowArray.Gout (m ((c : Thread nD τ).loc main_arg0)) (m ((c : Thread nD τ).loc main_arg1)) :=
  (dats m 0 c).arrAt_eq_of_cover 4 _ (fun t _ => flushed_eq m c t) cover

end Cert.KernelIdeal.HandValue

end
-- ==== Proof.RefConsts.lean ====
/-
  The float words the reference program spells, as the extended reals they denote, and the one quotient the
  reference forms with a constant divisor: dividing by the single-precision number nearest 0.07, which is
  9395241 / 2^27, is multiplying by its exact reciprocal 2^27 / 9395241.
-/
import Idealize.ShloMosaic.PureOps.Ideal
import Idealize.ShloMosaic.PureOps.Ideal.Laws
import proofs.«168036_j8761733284020_1_alg».proof.Proof.Spec

noncomputable section

namespace Cert.RefValue

open Idealize.ShloMosaic

/-- The word of 1.0 denotes 1. -/
theorem ofBits_one : Ideal.ofBits .f32 0x3F800000#32 = 1 := by
  simp [Ideal.ofBits, Ideal.ieee, -EReal.coe_mul]; norm_num

/-- The word of minus infinity denotes the bottom element. -/
theorem ofBits_neg_inf : Ideal.ofBits .f32 0xFF800000#32 = ⊥ := by
  simp [Ideal.ofBits, Ideal.ieee]

/-- The word nearest 0.07 denotes 9395241 / 2^27. -/
theorem ofBits_temp : Ideal.ofBits .f32 0x3D8F5C29#32 = ((9395241 / 134217728 : ℝ) : EReal) := by
  simp [Ideal.ofBits, Ideal.ieee, -EReal.coe_mul]; norm_num

/-- Dividing by the temperature word is multiplying by the reciprocal of the temperature. -/
theorem div_temp (y : EReal) : Ideal.div y (Ideal.ofBits .f32 0x3D8F5C29#32) = y * Cert.Spec.invTemp := by
  rw [ofBits_temp, Ideal.div_coe (by norm_num : (9395241 / 134217728 : ℝ) ≠ 0)]
  unfold Cert.Spec.invTemp
  congr 2
  norm_num

end Cert.RefValue

end
-- ==== Proof.RefLayout.lean ====
/-
  The reference program's first stages read entry by entry.

  The view-major matrix C and its transpose; the Gram matrix of C as a sum of products over the 256 features;
  its quotient by the temperature as the product with the reciprocal; the label of row n; and the two 0/1 masks
  built from the label comparison: 1 where the labels agree, and 1 minus that.
-/
import proofs.«168036_j8761733284020_1_alg».proof.Proof.Gen.ReferenceIdeal.Read
import proofs.«168036_j8761733284020_1_alg».proof.Proof.Layout
import proofs.«168036_j8761733284020_1_alg».proof.Proof.RefConsts

noncomputable section

namespace Cert.RefValue

open Cert.ReferenceIdeal Cert.ReferenceIdeal.Gen Cert.ReferenceIdeal.Read Idealize.ShloMosaic

/-- Entry (n, d) of the view-major matrix. -/
theorem v1_read (x : FVec Ideal S256x16x256 .f32) (n : Fin 4096) (d : Fin 256) :
    val_main_v1 (F := Ideal) x (ValueIdx.ix2 n d) = Cert.Spec.contrast x n d := by
  unfold val_main_v1 val_main_v0
  exact Cert.Layout.contrast_read x _ _ n d

/-- Entry (d, j) of its transpose. -/
theorem v5_read (x : FVec Ideal S256x16x256 .f32) (d : Fin 256) (j : Fin 4096) :
    val_main_v5 (F := Ideal) x (ValueIdx.ix2 d j) = Cert.Spec.contrast x j d := by
  rw [val_main_v5_apply]
  have e : idx_main_v5 (ValueIdx.ix2 d j) = ValueIdx.ix2 j d :=
    funext fun a => by match a with | ⟨0, _⟩ => rfl | ⟨1, _⟩ => rfl
  rw [e, v1_read]

/-- Entry (n, j) of the Gram matrix: the inner product of rows n and j. -/
theorem v6_read (x : FVec Ideal S256x16x256 .f32) (n j : Fin 4096) :
    val_main_v6 (F := Ideal) x (ValueIdx.ix2 n j) = ∑ k : Fin 256, Cert.Spec.contrast x n k * Cert.Spec.contrast x j k := by
  rw [val_main_v6_apply]
  refine Finset.sum_congr rfl fun k _ => ?_
  have el : lidx_main_v6 (ValueIdx.ix2 n j) k = ValueIdx.ix2 n k :=
    funext fun a => by match a with | ⟨0, _⟩ => rfl | ⟨1, _⟩ => rfl
  have er : ridx_main_v6 (ValueIdx.ix2 n j) k = ValueIdx.ix2 k j :=
    funext fun a => by match a with | ⟨0, _⟩ => rfl | ⟨1, _⟩ => rfl
  rw [el, er, v1_read, v5_read]

/-- Entry (n, j) of the scaled similarities: the inner product times the reciprocal of the temperature. -/
theorem v8_read (x : FVec Ideal S256x16x256 .f32) (n j : Fin 4096) :
    val_main_v8 (F := Ideal) x (ValueIdx.ix2 n j)
      = (∑ k : Fin 256, Cert.Spec.contrast x n k * Cert.Spec.contrast x j k) * Cert.Spec.invTemp := by
  rw [val_main_v8_apply, val_main_v7_apply, val_main_cst_apply, v6_read]
  exact div_temp _

/-- Entry n of the repeated labels. -/
theorem v4_read (lab : IVec S256 32) (n : Fin 4096) :
    val_main_v4 (F := Ideal) lab (ValueIdx.ix1 n) = Cert.Spec.lbl lab n := by
  unfold val_main_v4 val_main_v3 val_main_v2
  exact Cert.Layout.lbl_read lab _ _ _ n

/-- A one-bit comparison of two words read as a number is 1 where they agree and 0 where they differ. -/
theorem uitofp_cmpi_eq (a b : BitVec 32) :
    FloatOps.uitofp (F := Ideal) .f32 (IntOp.cmpi .eq a b) = if a = b then (1 : EReal) else 0 := by
  show (((IntOp.cmpi .eq a b).toNat : ℝ) : EReal) = _
  by_cases h : a = b
  · simp [IntOp.cmpi, h]
  · simp [IntOp.cmpi, h]

/-- Entry (n, j) of the agreement mask: 1 where rows n and j carry the same label. -/
theorem v18_read (lab : IVec S256 32) (n j : Fin 4096) :
    val_main_v18 (F := Ideal) lab (ValueIdx.ix2 n j)
      = if Cert.Spec.lbl lab n = Cert.Spec.lbl lab j then (1 : EReal) else 0 := by
  rw [val_main_v18_apply, val_main_v17_apply, val_main_v15_apply, val_main_v16_apply, val_main_v13_apply,
    val_main_v14_apply]
  have e1 : idx_main_v13 (idx_main_v15 (ValueIdx.ix2 n j)) = ValueIdx.ix1 n :=
    funext fun a => by match a with | ⟨0, _⟩ => rfl
  have e2 : idx_main_v14 (idx_main_v16 (ValueIdx.ix2 n j)) = ValueIdx.ix1 j :=
    funext fun a => by match a with | ⟨0, _⟩ => rfl
  rw [e1, e2, v4_read, v4_read]
  exact uitofp_cmpi_eq _ _

/-- Entry (n, j) of the complementary mask: 1 where rows n and j carry different labels. -/
theorem v20_read (lab : IVec S256 32) (n j : Fin 4096) :
    val_main_v20 (F := Ideal) lab (ValueIdx.ix2 n j)
      = if Cert.Spec.lbl lab n = Cert.Spec.lbl lab j then (0 : EReal) else 1 := by
  rw [val_main_v20_apply, val_main_v19_apply, val_main_cst_1_apply, v18_read]
  show Ideal.ofBits .f32 0x3F800000#32 - _ = _
  rw [ofBits_one]
  split_ifs
  · rw [← EReal.coe_one, ← EReal.coe_sub, sub_self, EReal.coe_zero]
  · rw [sub_zero]

end Cert.RefValue

end
-- ==== Proof.RefMax.lean ====
/-
  The maximum of a row of scaled similarities, as the reference takes it: the fold of the binary maximum, started at
  minus infinity, over the 4096 entries of the row; and the row shifted by that maximum.
-/
import proofs.«168036_j8761733284020_1_alg».proof.Proof.RefLayout

noncomputable section

namespace Cert.RefValue

open Cert.ReferenceIdeal Cert.ReferenceIdeal.Gen Cert.ReferenceIdeal.Read Idealize.ShloMosaic

/-- The scaled similarity of rows n and j. -/
def sim (x : FVec Ideal S256x16x256 .f32) (n j : Fin 4096) : EReal :=
  (∑ k : Fin 256, Cert.Spec.contrast x n k * Cert.Spec.contrast x j k) * Cert.Spec.invTemp

/-- Row n's similarities less their maximum. -/
def shifted (x : FVec Ideal S256x16x256 .f32) (n j : Fin 4096) : EReal :=
  sim x n j - (Finset.univ : Finset (Fin 4096)).fold max ⊥ (sim x n)

/-- Entry n of the row maxima. -/
theorem v9_read (x : FVec Ideal S256x16x256 .f32) (n : Fin 4096) :
    val_main_v9 (F := Ideal) x (ValueIdx.ix1 n) = (Finset.univ : Finset (Fin 4096)).fold max ⊥ (sim x n) := by
  unfold val_main_v9
  have hR : S4096x4096.Reduces [1] S4096 := by decide
  have hpt : ∀ j : Fin 4096, val_main_v8 (F := Ideal) x (hR.lift (ValueIdx.ix1 n) j) = sim x n j := fun j => by
    have el : hR.lift (ValueIdx.ix1 n) j = ValueIdx.ix2 n j :=
      funext fun a => Fin.ext (by match a with | ⟨0, _⟩ => rfl | ⟨1, _⟩ => rfl)
    rw [el, v8_read]
    rfl
  have hfun : (val_main_v8 (F := Ideal) x ∘ hR.lift (ValueIdx.ix1 n)) = fun j : Fin 4096 => sim x n j := funext hpt
  have hinit : val_main_cst_0 (F := Ideal) (Shape.Idx.first h_S_) = (⊥ : EReal) := by
    rw [val_main_cst_0_apply]
    exact ofBits_neg_inf
  refine (Host.reduce_eq_fold_single (FloatOps.maximumf (F := Ideal) (φ := .f32)) (val_main_v8 (F := Ideal) x)
    (val_main_cst_0 (F := Ideal)) reducesTo_S4096x4096_S4096_d1 hR h_S_ (ValueIdx.ix1 n)).trans ?_
  rw [hfun, hinit]
  rfl

/-- Entry (n, j) of the shifted similarities. -/
theorem v12_read (x : FVec Ideal S256x16x256 .f32) (n j : Fin 4096) :
    val_main_v12 (F := Ideal) x (ValueIdx.ix2 n j) = shifted x n j := by
  rw [val_main_v12_apply, val_main_v11_apply, val_main_v10_apply, v8_read]
  have e : idx_main_v10 (idx_main_v11 (ValueIdx.ix2 n j)) = ValueIdx.ix1 n :=
    funext fun a => by match a with | ⟨0, _⟩ => rfl
  rw [e, v9_read]
  rfl

end Cert.RefValue

end
-- ==== Proof.RefScatter.lean ====
/-
  The scatter that clears the diagonal of the agreement mask, read entry by entry.

  The scatter walks over 4096 updates, all equal to zero; update n is written at the position whose two
  coordinates are both read off row n of a 4096 x 2 table of positions. Column 0 and column 1 of that table both
  hold the row number n itself (the counter 0, 1, ..., 4095, which is never negative, so the wrap-around
  correction "add 4096 where negative" never applies). Hence update n lands at (n, n), every diagonal entry is
  overwritten by zero, and every other entry keeps the operand's value.
-/
import proofs.«168036_j8761733284020_1_alg».proof.Proof.Gen.ReferenceIdeal.Read
import Idealize.ShloMosaic.Lib.Affine

noncomputable section

namespace Cert.RefValue

open Cert.ReferenceIdeal Cert.ReferenceIdeal.Gen Cert.ReferenceIdeal.Read Idealize.ShloMosaic

/-- Writing one constant at the positions a list of updates names: an entry ends as the constant if some update
    names it, and is untouched otherwise. The step is given by what it does when an update names a position and
    when it names none. -/
theorem foldl_const_set {I α ι : Type} [DecidableEq I] (tgt : ι → Option I) (c : α)
    (step : (I → α) → ι → I → α)
    (hsome : ∀ r n k, tgt n = some k → ∀ i', step r n i' = if i' = k then c else r i')
    (hnone : ∀ r n, tgt n = none → step r n = r)
    (L : List ι) (x : I → α) (i : I) :
    (L.foldl step x) i = if ∃ n ∈ L, tgt n = some i then c else x i := by
  induction L generalizing x with
  | nil => simp
  | cons n L ih =>
    rw [List.foldl_cons, ih]
    cases hn : tgt n with
    | none => rw [hnone x n hn]; simp [hn]
    | some k =>
      rw [hsome x n k hn]
      by_cases hk : i = k
      · subst hk; simp [hn]
      · have hk' : ¬ k = i := fun h => hk h.symm
        simp [hn, hk, hk']

/-- A number below 4096 stored in a 32-bit word reads back, signed, as itself. -/
theorem toInt_ofNat_small (k : Nat) (hk : k < 4096) : (BitVec.ofNat 32 k).toInt = (k : Int) := by
  have h : (BitVec.ofNat 32 k).toNat = k := by rw [BitVec.toNat_ofNat]; exact Nat.mod_eq_of_lt (by omega)
  rw [BitVec.toInt_eq_toNat_cond, h, if_pos (by omega)]

/-- The counter with its wrap-around correction is the counter: entry k is k. -/
theorem v26_read (i : S4096.Idx) : val_main_v26 (F := Ideal) i = BitVec.ofNat 32 (i 0).val := by
  rw [val_main_v26_apply, val_main_v23_apply, val_main_v21_apply, val_main_v22_apply, val_main_c_apply]
  have hlt : (i 0).val < 4096 := (i 0).isLt
  have hc : ¬ IntOp.cmpi .slt (BitVec.ofNat 32 (i 0).val) 0#32 = 1 := fun h => by
    have h' := IntOp.cmpi_slt.mp h
    rw [toInt_ofNat_small _ hlt, show (0#32 : BitVec 32).toInt = 0 from rfl] at h'
    omega
  unfold Scalar.select
  rw [if_neg hc]

/-- Likewise for the second copy of the counter. -/
theorem v31_read (i : S4096.Idx) : val_main_v31 (F := Ideal) i = BitVec.ofNat 32 (i 0).val := by
  rw [val_main_v31_apply, val_main_v28_apply, val_main_v21_apply, val_main_v27_apply, val_main_c_3_apply]
  have hlt : (i 0).val < 4096 := (i 0).isLt
  have hc : ¬ IntOp.cmpi .slt (BitVec.ofNat 32 (i 0).val) 0#32 = 1 := fun h => by
    have h' := IntOp.cmpi_slt.mp h
    rw [toInt_ofNat_small _ hlt, show (0#32 : BitVec 32).toInt = 0 from rfl] at h'
    omega
  unfold Scalar.select
  rw [if_neg hc]

/-- Both columns of the table of positions hold the row number. -/
theorem v34_read (i : S4096x2.Idx) : val_main_v34 (F := Ideal) i = BitVec.ofNat 32 (i 0).val := by
  unfold val_main_v34
  have h1 : (i 1).val < 2 := (i 1).isLt
  by_cases h0 : (i 1).val = 0
  · rw [concatenate_pair_apply_left 1 _ _ concatenates_S4096x1_S4096x1_S4096x2_d1 i rfl
      (ValueIdx.ix2 (i 0) (⟨0, Nat.one_pos⟩ : Fin 1))
      (fun b => by match b with
        | ⟨0, _⟩ => rfl
        | ⟨1, _⟩ => exact h0.symm)]
    rw [val_main_v32_apply, v26_read]
  · have h1' : (i 1).val = 1 := by omega
    rw [concatenate_pair_apply_right 1 _ _ concatenates_S4096x1_S4096x1_S4096x2_d1 i rfl rfl
      (ValueIdx.ix2 (i 0) (⟨0, Nat.one_pos⟩ : Fin 1))
      (fun b hb => by match b with
        | ⟨0, _⟩ => rfl
        | ⟨1, _⟩ => exact absurd rfl hb)
      (by show 0 + 1 = (i 1).val; omega)]
    rw [val_main_v33_apply, v31_read]

/-- An update lands at a position when, on every axis, its start plus its window coordinate is the position's
    coordinate. -/
theorem resultIdx?_eq_some {s si u : Shape} {w : Nat} (d : ScatterDims s si u) (j : u.Idx) (idx : IVec si w) (i : s.Idx)
    (h : ∀ a, d.start j idx a + (d.window j a : Int) = ((i a).val : Int)) : d.resultIdx? j idx = some i := by
  unfold ScatterDims.resultIdx?
  rw [dif_pos (fun a => by rw [h a]; exact ⟨Int.natCast_nonneg _, by exact_mod_cast (i a).isLt⟩)]
  congr 1
  funext a
  apply Fin.ext
  show (d.start j idx a + (d.window j a : Int)).toNat = (i a).val
  rw [h a]
  simp

/-- Update n reads both coordinates of its position off row n of the table. -/
theorem siIdx_zero (j : S4096.Idx) (c : Fin scatter_S4096x4096_S4096x2_S4096_n_01_01_1.scatterDimsToOperandDims.length) :
    (scatter_S4096x4096_S4096x2_S4096_n_01_01_1.siIdx j c 0).val = (j 0).val := by
  unfold ScatterDims.siIdx
  rw [dif_neg (show ¬ ((0 : Fin S4096x2.rank).val = scatter_S4096x4096_S4096x2_S4096_n_01_01_1.indexVectorDim) by decide)]
  unfold ScatterDims.siCoord
  exact congrArg (fun k => (j k).val) (Subsingleton.elim _ _)

/-- On both axes the start of update n's window is n. -/
theorem start_eq (j : S4096.Idx) (a : Fin S4096x4096.rank) :
    scatter_S4096x4096_S4096x2_S4096_n_01_01_1.start j (val_main_v34 (F := Ideal)) a = ((j 0).val : Int) := by
  have hlt : (j 0).val < 4096 := (j 0).isLt
  have ha : a ∈ scatter_S4096x4096_S4096x2_S4096_n_01_01_1.scatterDimsToOperandDims := by revert a; decide
  unfold ScatterDims.start
  rw [dif_pos ha, v34_read, siIdx_zero, toInt_ofNat_small _ hlt]

/-- The updates are single entries: the window coordinate is 0 on both axes. -/
theorem window_eq (j : S4096.Idx) (a : Fin S4096x4096.rank) :
    scatter_S4096x4096_S4096x2_S4096_n_01_01_1.window j a = 0 := by
  have ha : ¬ a ∈ scatter_S4096x4096_S4096x2_S4096_n_01_01_1.sKept := by revert a; decide
  unfold ScatterDims.window
  rw [dif_neg ha]

/-- Update n lands on the diagonal position (n, n). -/
theorem resultIdx_diag (j : S4096.Idx) :
    scatter_S4096x4096_S4096x2_S4096_n_01_01_1.resultIdx? j (val_main_v34 (F := Ideal))
      = some (ValueIdx.ix2 (⟨(j 0).val, (j 0).isLt⟩ : Fin 4096) (⟨(j 0).val, (j 0).isLt⟩ : Fin 4096)) :=
  resultIdx?_eq_some _ j _ _ (fun a => by
    rw [start_eq, window_eq]
    have e : (ValueIdx.ix2 (⟨(j 0).val, (j 0).isLt⟩ : Fin 4096) (⟨(j 0).val, (j 0).isLt⟩ : Fin 4096) a).val = (j 0).val := by
      match a with
      | ⟨0, _⟩ => rfl
      | ⟨1, _⟩ => rfl
    rw [e]
    simp)

/-- Entry (n, j) of the mask after the scatter: zero on the diagonal, the agreement mask elsewhere. -/
theorem v36_read (lab : IVec S256 32) (n j : Fin 4096) :
    val_main_v36 (F := Ideal) lab (ValueIdx.ix2 n j)
      = if j = n then Ideal.ofBits .f32 0x00000000#32 else val_main_v18 (F := Ideal) lab (ValueIdx.ix2 n j) := by
  unfold val_main_v36
  have hupd : val_main_v35 (F := Ideal) = fun _ => Ideal.ofBits .f32 0x00000000#32 := by
    funext i
    rw [val_main_v35_apply, val_main_cst_5_apply]
    rfl
  rw [hupd]
  unfold Host.scatter
  refine (foldl_const_set
    (fun m => scatter_S4096x4096_S4096x2_S4096_n_01_01_1.resultIdx? (S4096.rowMajor.symm m) (val_main_v34 (F := Ideal)))
    (Ideal.ofBits .f32 0x00000000#32) _ ?_ ?_ _ _ _).trans ?_
  · intro r m k h i'
    simp only [h]
  · intro r m h
    simp only [h]
  · have hiff : (∃ m ∈ List.finRange S4096.numel,
        scatter_S4096x4096_S4096x2_S4096_n_01_01_1.resultIdx? (S4096.rowMajor.symm m) (val_main_v34 (F := Ideal))
          = some (ValueIdx.ix2 n j)) ↔ j = n := by
      constructor
      · rintro ⟨m, _, hm⟩
        rw [resultIdx_diag] at hm
        have h := Option.some.inj hm
        have h0 : (⟨((S4096.rowMajor.symm m) 0).val, ((S4096.rowMajor.symm m) 0).isLt⟩ : Fin 4096) = n := congrFun h 0
        have h1 : (⟨((S4096.rowMajor.symm m) 0).val, ((S4096.rowMajor.symm m) 0).isLt⟩ : Fin 4096) = j := congrFun h 1
        exact h1.symm.trans h0
      · rintro rfl
        refine ⟨S4096.rowMajor (ValueIdx.ix1 j), List.mem_finRange _, ?_⟩
        rw [Equiv.symm_apply_apply, resultIdx_diag]
    by_cases hjn : j = n
    · rw [if_pos (hiff.mpr hjn), if_pos hjn]
    · rw [if_neg (mt hiff.mp hjn), if_neg hjn]

end Cert.RefValue

end
-- ==== Proof.RefRow.lean ====
/-
  One row of the reference's computation, read entry by entry and summed.

  For row n: the exponentials of the shifted similarities; their sum N over the rows of another class; the
  log-ratio z j - log (exp (z j) + N); the mask of the rows of the same class other than n itself (the agreement
  mask with its diagonal cleared); and minus the quotient of the masked sum of the log-ratios by the size of the mask.
  Each sum the reference forms starts from the zero word, which denotes 0 and drops out.
-/
import proofs.«168036_j8761733284020_1_alg».proof.Proof.RefMax
import proofs.«168036_j8761733284020_1_alg».proof.Proof.RefScatter

noncomputable section

namespace Cert.RefValue

open Cert.ReferenceIdeal Cert.ReferenceIdeal.Gen Cert.ReferenceIdeal.Read Idealize.ShloMosaic

/-- 1 on the rows whose class differs from row n's. -/
def other (lab : IVec S256 32) (n j : Fin 4096) : EReal :=
  if Cert.Spec.lbl lab n = Cert.Spec.lbl lab j then 0 else 1

/-- 1 on the rows of row n's class other than n itself. -/
def same (lab : IVec S256 32) (n j : Fin 4096) : EReal :=
  if Cert.Spec.lbl lab n = Cert.Spec.lbl lab j ∧ j ≠ n then 1 else 0

/-- The sum of the exponentials over the rows of another class. -/
def negSum (x : FVec Ideal S256x16x256 .f32) (lab : IVec S256 32) (n : Fin 4096) : EReal :=
  ∑ j : Fin 4096, Ideal.exp (shifted x n j) * other lab n j

/-- The log-ratio of row j against row n. -/
def logProb (x : FVec Ideal S256x16x256 .f32) (lab : IVec S256 32) (n j : Fin 4096) : EReal :=
  shifted x n j - Ideal.log (Ideal.exp (shifted x n j) + negSum x lab n)

theorem v37_read (x : FVec Ideal S256x16x256 .f32) (n j : Fin 4096) :
    val_main_v37 (F := Ideal) x (ValueIdx.ix2 n j) = Ideal.exp (shifted x n j) := by
  rw [val_main_v37_apply, v12_read]
  rfl

theorem v39_read (x : FVec Ideal S256x16x256 .f32) (lab : IVec S256 32) (n : Fin 4096) :
    val_main_v39 (F := Ideal) x lab (ValueIdx.ix1 n) = negSum x lab n := by
  rw [val_main_v39_apply, val_main_cst_6_apply]
  show Ideal.ofBits .f32 0x00000000#32 + _ = _
  rw [Ideal.ofBits_zero_f32, zero_add]
  refine Finset.sum_congr rfl fun k _ => ?_
  have e : idx_main_v39 (ValueIdx.ix1 n) k = ValueIdx.ix2 n k :=
    funext fun a => by match a with | ⟨0, _⟩ => rfl | ⟨1, _⟩ => rfl
  rw [e, val_main_v38_apply, v37_read, v20_read]
  rfl

theorem v44_read (x : FVec Ideal S256x16x256 .f32) (lab : IVec S256 32) (n j : Fin 4096) :
    val_main_v44 (F := Ideal) x lab (ValueIdx.ix2 n j) = logProb x lab n j := by
  rw [val_main_v44_apply, val_main_v43_apply, val_main_v42_apply, val_main_v41_apply, val_main_v40_apply, v12_read,
    v37_read]
  have e : idx_main_v40 (idx_main_v41 (ValueIdx.ix2 n j)) = ValueIdx.ix1 n :=
    funext fun a => by match a with | ⟨0, _⟩ => rfl
  rw [e, v39_read]
  rfl

/-- The agreement mask with its diagonal cleared is the mask of the same-class rows other than n. -/
theorem v36_same (lab : IVec S256 32) (n j : Fin 4096) :
    val_main_v36 (F := Ideal) lab (ValueIdx.ix2 n j) = same lab n j := by
  rw [v36_read, v18_read, Ideal.ofBits_zero_f32]
  unfold same
  by_cases hjn : j = n
  · rw [if_pos hjn, if_neg (fun h => h.2 hjn)]
  · rw [if_neg hjn]
    by_cases hl : Cert.Spec.lbl lab n = Cert.Spec.lbl lab j
    · rw [if_pos hl, if_pos ⟨hl, hjn⟩]
    · rw [if_neg hl, if_neg (fun h => hl h.1)]

theorem v46_read (x : FVec Ideal S256x16x256 .f32) (lab : IVec S256 32) (n : Fin 4096) :
    val_main_v46 (F := Ideal) x lab (ValueIdx.ix1 n) = ∑ j : Fin 4096, same lab n j * logProb x lab n j := by
  rw [val_main_v46_apply, val_main_cst_7_apply]
  show Ideal.ofBits .f32 0x00000000#32 + _ = _
  rw [Ideal.ofBits_zero_f32, zero_add]
  refine Finset.sum_congr rfl fun k _ => ?_
  have e : idx_main_v46 (ValueIdx.ix1 n) k = ValueIdx.ix2 n k :=
    funext fun a => by match a with | ⟨0, _⟩ => rfl | ⟨1, _⟩ => rfl
  rw [e, val_main_v45_apply, v36_same, v44_read]
  rfl

theorem v47_read (lab : IVec S256 32) (n : Fin 4096) :
    val_main_v47 (F := Ideal) lab (ValueIdx.ix1 n) = ∑ j : Fin 4096, same lab n j := by
  rw [val_main_v47_apply, val_main_cst_8_apply]
  show Ideal.ofBits .f32 0x00000000#32 + _ = _
  rw [Ideal.ofBits_zero_f32, zero_add]
  refine Finset.sum_congr rfl fun k _ => ?_
  have e : idx_main_v47 (ValueIdx.ix1 n) k = ValueIdx.ix2 n k :=
    funext fun a => by match a with | ⟨0, _⟩ => rfl | ⟨1, _⟩ => rfl
  rw [e, v36_same]

/-- Entry n of the per-row values is the specification's row value of row n's data. -/
theorem v50_read (x : FVec Ideal S256x16x256 .f32) (lab : IVec S256 32) (n : Fin 4096) :
    val_main_v50 (F := Ideal) x lab (ValueIdx.ix1 n)
      = Cert.Spec.rowLoss (Cert.Spec.contrast x n) (Cert.Spec.contrast x) (Cert.Spec.lbl lab n) (Cert.Spec.lbl lab) n := by
  rw [val_main_v50_apply, val_main_v49_apply, val_main_cst_9_apply, val_main_v48_apply, v46_read, v47_read]
  rfl

end Cert.RefValue

end
-- ==== Proof.RefLoss.lean ====
/-
  The reference's result: the mean of the 4096 row values, which is the specification's loss.

  The last sum runs over the one-axis index set of length 4096; it is re-indexed by the coordinate, and each term is
  the specification's row value.
-/
import proofs.«168036_j8761733284020_1_alg».proof.Proof.RefRow

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo

/-- A one-axis index set is its coordinate's range … -/
def idxEquiv1 {n : Nat} : (⟨1, ![n]⟩ : Shape).Idx ≃ Fin n where
  toFun i := i 0
  invFun k := ValueIdx.ix1 k
  left_inv i := (ValueIdx.eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ k : Fin n, f (ValueIdx.ix1 k) := by
  rw [← Equiv.sum_comp (idxEquiv1 (n := n)).symm f]
  rfl

/-- The reference's result is the specification's loss. -/
theorem result_eq (x : FVec Ideal S256x16x256 .f32) (lab : IVec S256 32) :
    val_main_v52 (F := Ideal) x lab = fun _ => Cert.Spec.loss x lab := by
  funext i
  rw [val_main_v52_apply, val_main_v51_apply, val_main_cst_10_apply, val_main_cst_11_apply]
  have hs : ∑ j : S4096.Idx, val_main_v50 (F := Ideal) x lab j
      = ∑ n : Fin 4096, Cert.Spec.rowLoss (Cert.Spec.contrast x n) (Cert.Spec.contrast x) (Cert.Spec.lbl lab n)
          (Cert.Spec.lbl lab) n := by
    rw [sum_idx1]
    exact Finset.sum_congr rfl fun n _ => v50_read x lab n
  rw [hs]
  rfl

/-- The same, for the result as the reference's run states it: a function of the memory the run starts from. -/
theorem res_eq (m : (ℓ : Loc nD τ sig) → Buf (Elt Ideal) ℓ) (c : Dev nD) :
    Cert.ReferenceIdeal.Value.res_main_v52 (F := Ideal) m c
      = fun _ => Cert.Spec.loss (m ((c.tc : Thread nD τ).loc main_arg0)) (m ((c.tc : Thread nD τ).loc main_arg1)) :=
  (val_main_v52_eq (F := Ideal) m c).trans (result_eq _ _)

end Cert.RefValue

end
-- ==== Proof.lean ====
/-
  Both programs compute one supervised-contrastive loss from 256 x 16 features of dimension 256 and 256 class labels.
  The features are read view-major as a 4096 x 256 matrix C and the labels are repeated once per view. For each of the
  4096 rows n: the similarities <C n, C j> of the row with every row j, scaled by the reciprocal of the temperature and
  shifted by their maximum; the sum N of their exponentials over the rows of another class; the log-ratios
  z j - log (exp (z j) + N); and minus the mean of the log-ratios over the rows of the same class other than n. The
  loss is the mean of the 4096 row values (Spec.lean states it as one function of the two arrays).

  The kernel computes the rows in sixteen blocks of 256, each block against the whole matrix, multiplying the
  similarities by a constant; the reference computes the whole 4096 x 4096 table at once and divides it by the
  single-precision temperature 9395241 / 2^27. The kernel's constant is named and denotes 2^27 / 9395241, the exact
  reciprocal of that divisor, so on the extended reals the product and the quotient are one number. The two programs
  spell the class masks differently (a comparison turned into 0 / 1 against one minus it; the diagonal removed by an
  index comparison against a scatter of zeros), which are the same 0 / 1 values. No step moves a factor across a sum or
  cancels anything, so finiteness of the inputs is never used.

  The pieces: the reference's result is the loss (RefLoss.lean, over the generated run of the reference); one row of
  a stored block is the row's value (PayRow.lean, over the kernel body's payload); the sixteen stored blocks make the
  array of row values (KernelIdealValue.lean); the kernel program runs to its end with the result buffer at the mean of
  that array and its arguments unchanged (KernelIdealRun.lean, and KernelRun.lean for the program as printed); the
  mean of the row values is the loss (RowArray.lean).
-/
import proofs.«168036_j8761733284020_1_alg».proof.Defs
import proofs.«168036_j8761733284020_1_alg».proof.Proof.Gen.Kernel
import proofs.«168036_j8761733284020_1_alg».proof.Proof.Gen.Kernel.Skeleton
import proofs.«168036_j8761733284020_1_alg».proof.Proof.Gen.Kernel.Launch
import proofs.«168036_j8761733284020_1_alg».proof.Proof.Gen.Kernel.Points
import proofs.«168036_j8761733284020_1_alg».proof.Proof.Gen.KernelIdeal
import proofs.«168036_j8761733284020_1_alg».proof.Proof.Gen.KernelIdeal.Skeleton
import proofs.«168036_j8761733284020_1_alg».proof.Proof.Gen.KernelIdeal.Launch
import proofs.«168036_j8761733284020_1_alg».proof.Proof.Gen.KernelIdeal.Points
import proofs.«168036_j8761733284020_1_alg».proof.Proof.Gen.ReferenceIdeal
import proofs.«168036_j8761733284020_1_alg».proof.Proof.Gen.Pre_finite_inputs
import proofs.«168036_j8761733284020_1_alg».proof.Proof.Gen.ReferenceIdeal.Run
import proofs.«168036_j8761733284020_1_alg».proof.Proof.Gen.ReferenceIdeal.Read
import proofs.«168036_j8761733284020_1_alg».proof.Proof.KernelRun
import proofs.«168036_j8761733284020_1_alg».proof.Proof.KernelIdealRun
import proofs.«168036_j8761733284020_1_alg».proof.Proof.KernelIdealValue
import proofs.«168036_j8761733284020_1_alg».proof.Proof.RowArray
import proofs.«168036_j8761733284020_1_alg».proof.Proof.RefLoss
import Idealize.ShloMosaic.Adequacy
import Idealize.ShloMosaic.Init

noncomputable section

namespace Cert.Proof

open Idealize.ShloMosaic Idealize.ShloMosaic.TcCoe Idealize.SL.Sem

/-- The program as printed runs to its end and leaves its arguments as launched. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference is host lines only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewritten constant: the table gives the name the value 2^27 / 9395241, and the printed constant is that
    value on the extended reals. -/
theorem preserves : Cert.preserves_Kernel_KernelIdeal :=
  IdealRules.named_const.statement Cert.KernelIdeal.κ "inv_temperature" .f32 0x41649249#32 ((134217728 / 9395241 : ℝ) : EReal) rfl

/-- From memories that agree on the two arguments both programs end with the result at the loss of those arguments. -/
theorem algebraic : Cert.algebraic_KernelIdeal_ReferenceIdeal := by
  intro m ρ m' ρ' _ hagree
  refine ⟨fun c => fun _ => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2.1, (h c).2.2⟩)
      (Cert.KernelIdeal.Hand.run_result (F := Ideal) m ρ)
    rw [Cert.KernelIdeal.HandValue.arrAt4_eq m c]
    exact Cert.RowArray.mean_eq _ _ _ _
  · refine (θ_run Cert.ReferenceIdeal.defs _ _).mono (fun _ h c => ⟨?_, (h c).2⟩)
      (Cert.ReferenceIdeal.Value.run (F := Ideal) m' ρ')
    rw [(h c).1, Cert.RefValue.res_eq, (hagree c).1, (hagree c).2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
